-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128x1 : Shape := ⟨3, ![4096, 128, 1]⟩
abbrev S64x1 : Shape := ⟨2, ![64, 1]⟩
abbrev S64x64 : Shape := ⟨2, ![64, 64]⟩
abbrev S1x128 : Shape := ⟨2, ![1, 128]⟩
abbrev S_ : Shape := ⟨0, ![]⟩

class Facts : Prop where
  bcast_S_S4096x128x1 : S_.BroadcastsInDim S4096x128x1 (![] : Fin 0 → Fin S4096x128x1.rank)
  reducesTo_S4096x128x1_S_d0_1_2 : S4096x128x1.ReducesTo [0, 1, 2] S_
  h_S_ : 0 < S_.numel
  bcast_S_S64x1 : S_.BroadcastsInDim S64x1 (![] : Fin 0 → Fin S64x1.rank)
  reducesTo_S64x1_S_d0_1 : S64x1.ReducesTo [0, 1] S_
  bcast_S_S64x64 : S_.BroadcastsInDim S64x64 (![] : Fin 0 → Fin S64x64.rank)
  reducesTo_S64x64_S_d0_1 : S64x64.ReducesTo [0, 1] S_
  bcast_S_S1x128 : S_.BroadcastsInDim S1x128 (![] : Fin 0 → Fin S1x128.rank)
  reducesTo_S1x128_S_d0_1 : S1x128.ReducesTo [0, 1] S_

variable [Facts]

def fn_part2 {F : FTy → Type} [FloatOps F] (main_arg7 : FVec F S64x64 .f32) (main_arg8 : FVec F S64x64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  main_v43

def fn_part1 {F : FTy → Type} [FloatOps F] (main_arg4 : FVec F S64x64 .f32) (main_arg5 : FVec F S64x1 .f32) (main_arg6 : FVec F S1x128 .f32) (main_arg7 : FVec F S64x64 .f32) (main_arg8 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x1 .f32 := Host.absf main_arg5
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg7 main_arg8 main_v33

def fn {F : FTy → Type} [FloatOps F] (main_arg0 : FVec F S4096x128x1 .f32) (main_arg1 : FVec F S4096x128x1 .f32) (main_arg2 : FVec F S64x1 .f32) (main_arg3 : FVec F S64x64 .f32) (main_arg4 : FVec F S64x64 .f32) (main_arg5 : FVec F S64x1 .f32) (main_arg6 : FVec F S1x128 .f32) (main_arg7 : FVec F S64x64 .f32) (main_arg8 : FVec F S64x64 .f32) : IVec S_ 1 :=
  let main_v0 : FVec F S4096x128x1 .f32 := Host.absf main_arg0
  let main_cst : FVec F S_ .f32 := constant S_ .f32 0x7F800000#32
  let main_v1 : FVec F S4096x128x1 .f32 := broadcastInDim S4096x128x1 ![] bcast_S_S4096x128x1 main_cst
  let main_v2 : IVec S4096x128x1 1 := cmpf .olt main_v0 main_v1
  let main_c : IVec S_ 1 := constantI S_ 1 1#1
  let main_v3 : IVec S_ 1 := (fun x v => Host.reduce IntOp.andi x v reducesTo_S4096x128x1_S_d0_1_2 h_S_) main_v2 main_c
  let main_v4 : FVec F S4096x128x1 .f32 := Host.absf main_arg1
  let main_cst_0 : FVec F S_ .f32 := constant S_ .f32 0x7F800000#32
  let main_v5 : FVec F S4096x128x1 .f32 := broadcastInDim S4096x128x1 ![] bcast_S_S4096x128x1 main_cst_0
  let main_v6 : IVec S4096x128x1 1 := cmpf .olt main_v4 main_v5
  let main_c_1 : IVec S_ 1 := constantI S_ 1 1#1
  let main_v7 : IVec S_ 1 := (fun x v => Host.reduce IntOp.andi x v reducesTo_S4096x128x1_S_d0_1_2 h_S_) main_v6 main_c_1
  let main_v8 : IVec S_ 1 := andi main_v3 main_v7
  let main_v9 : FVec F S64x1 .f32 := Host.absf main_arg2
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_v13 main_v16
-- ==== Kernel.lean ====
abbrev S4096x128x1 : Shape := ⟨3, ![4096, 128, 1]⟩
abbrev S64x1 : Shape := ⟨2, ![64, 1]⟩
abbrev S64x64 : Shape := ⟨2, ![64, 64]⟩
abbrev S1x128 : Shape := ⟨2, ![1, 128]⟩
abbrev S4096x128 : Shape := ⟨2, ![4096, 128]⟩
abbrev S1x64 : Shape := ⟨2, ![1, 64]⟩
abbrev S128x128 : Shape := ⟨2, ![128, 128]⟩
abbrev S128x128x1 : Shape := ⟨3, ![128, 128, 1]⟩
abbrev S64 : Shape := ⟨1, ![64]⟩
abbrev S1x1x64 : Shape := ⟨3, ![1, 1, 64]⟩
abbrev S128x128x64 : Shape := ⟨3, ![128, 128, 64]⟩
abbrev S128x64 : Shape := ⟨2, ![128, 64]⟩
abbrev S128x1x64 : Shape := ⟨3, ![128, 1, 64]⟩
abbrev S16384x64 : Shape := ⟨2, ![16384, 64]⟩
abbrev S16384x1 : Shape := ⟨2, ![16384, 1]⟩
abbrev S128x1 : Shape := ⟨2, ![128, 1]⟩

abbrev nBuf : Space → Nat
  | .hbm => 21
  | .vmem => 13
  | .smem => 0
  | _ => 0

abbrev bufTy : (tb : Table) → Fin (tcTables nBuf tb) → BufTy
  | .hbm, ⟨0, _⟩ => ⟨S4096x128x1, .f32⟩
  | .hbm, ⟨1, _⟩ => ⟨S4096x128x1, .f32⟩
  | .hbm, ⟨2, _⟩ => ⟨S64x1, .f32⟩
  | .hbm, ⟨3, _⟩ => ⟨S64x64, .f32⟩
  | .hbm, ⟨4, _⟩ => ⟨S64x64, .f32⟩
  | .hbm, ⟨5, _⟩ => ⟨S64x1, .f32⟩
  | .hbm, ⟨6, _⟩ => ⟨S1x128, .f32⟩
  | .hbm, ⟨7, _⟩ => ⟨S64x64, .f32⟩
  | .hbm, ⟨8, _⟩ => ⟨S64x64, .f32⟩
  | .hbm, ⟨9, _⟩ => ⟨S4096x128, .f32⟩
  | .hbm, ⟨10, _⟩ => ⟨S4096x128, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S1x64, .f32⟩
  | .hbm, ⟨15, _⟩ => ⟨S1x64, .f32⟩
  | .hbm, ⟨16, _⟩ => ⟨S64x1, .f32⟩
  | .hbm, ⟨17, _⟩ => ⟨S1x64, .f32⟩
  | .hbm, ⟨18, _⟩ => ⟨S64x1, .f32⟩
  | .hbm, ⟨19, _⟩ => ⟨S4096x128, .f32⟩
  | .hbm, ⟨20, _⟩ => ⟨S4096x128x1, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S64x1, .f32⟩
  | .local _ .vmem, ⟨5, _⟩ => ⟨S64x1, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S64x1, .f32⟩
  | .local _ .vmem, ⟨10, _⟩ => ⟨S64x1, .f32⟩
  | .local _ .vmem, ⟨11, _⟩ => ⟨S128x128, .f32⟩
  | .local _ .vmem, ⟨12, _⟩ => ⟨S128x128, .f32⟩
  | _, _ => ⟨S4096x128x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S4096x128x1_S4096x128 : S4096x128x1.ShapeCasts S4096x128
  transposes_S64x64_S64x64_1_0 : S64x64.Transposes [1, 0] S64x64
  slices_S1x128_S1x64_0_0 : S1x128.Slices ![0, 0] S1x64
  slices_S1x128_S1x64_0_64 : S1x128.Slices ![0, 64] S1x64
  transposes_S1x64_S64x1_1_0 : S1x64.Transposes [1, 0] S64x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S64x1_S64x1_0_0 : ∀ a, (![0, 0] : Fin 2 → Nat) a + S64x1.size a ≤ S64x1.size a
  h_S64x1 : 0 < S64x1.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  shapeCasts_S64x1_S64x1 : S64x1.ShapeCasts S64x1
  shapeCasts_S128x128_S128x128x1 : S128x128.ShapeCasts S128x128x1
  shapeCasts_S64x1_S64 : S64x1.ShapeCasts S64
  shapeCasts_S64_S1x1x64 : S64.ShapeCasts S1x1x64
  broadcasts_S128x128x1_S128x128x64 : S128x128x1.Broadcasts S128x128x64
  broadcasts_S1x1x64_S128x128x64 : S1x1x64.Broadcasts S128x128x64
  reduces_S128x128x64_S128x64 : S128x128x64.Reduces [1] S128x64
  shapeCasts_S128x64_S128x1x64 : S128x64.ShapeCasts S128x1x64
  broadcasts_S128x1x64_S128x128x64 : S128x1x64.Broadcasts S128x128x64
  shapeCasts_S128x128x64_S16384x64 : S128x128x64.ShapeCasts S16384x64
  shapeCasts_S16384x64_S128x128x64 : S16384x64.ShapeCasts S128x128x64
  shapeCasts_S128x1x64_S128x64 : S128x1x64.ShapeCasts S128x64
  shapeCasts_S16384x1_S128x128 : S16384x1.ShapeCasts S128x128
  broadcasts_S128x1_S128x128 : S128x1.Broadcasts S128x128
  shapeCasts_S4096x128_S4096x128x1 : S4096x128.ShapeCasts S4096x128x1
  dot_S1x64_S64x64_S1x64_1_0_0_1_n_n_wf : DotDims.WF S1x64 S64x64 S1x64 [1] [0] [0] [1] [] []
  dot_S16384x64_S64x64_S16384x64_1_0_0_1_n_n_wf : DotDims.WF S16384x64 S64x64 S16384x64 [1] [0] [0] [1] [] []
  dot_S128x64_S64x64_S128x64_1_0_0_1_n_n_wf : DotDims.WF S128x64 S64x64 S128x64 [1] [0] [0] [1] [] []
  dot_S16384x64_S64x1_S16384x1_1_0_0_1_n_n_wf : DotDims.WF S16384x64 S64x1 S16384x1 [1] [0] [0] [1] [] []
  dot_S128x64_S64x1_S128x1_1_0_0_1_n_n_wf : DotDims.WF S128x64 S64x1 S128x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S4096x128.size a
  hwx0_0 : ∀ i : grid0.Coords, EltTy.bits .f32 = 32 ∨ (Rect.block (s := S4096x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S4096x128.size a
  hwx0_1 : ∀ i : grid0.Coords, EltTy.bits .f32 = 32 ∨ (Rect.block (s := S4096x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1.size a ≤ S64x1.size a
  hwx0_8 : ∀ i : grid0.Coords, EltTy.bits .f32 = 32 ∨ (Rect.block (s := S64x1) S64x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S4096x128.size a
  hwx0_9 : ∀ i : grid0.Coords, EltTy.bits .f32 = 32 ∨ (Rect.block (s := S4096x128) S128x128.size (cc0_transform_9 i) (hinb0_9 i)).WholeWords (EltTy.packing .f32)

variable [Facts₀]

def dot_S1x64_S64x64_S1x64_1_0_0_1_n_n : DotDims S1x64 S64x64 S1x64 where
  lhsContracting := [1]
  rhsContracting := [0]
  lhsNonContracting := [0]
  rhsNonContracting := [1]
  lhsBatch := []
  rhsBatch := []
  wf := dot_S1x64_S64x64_S1x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S128x64_S64x64_S128x64_1_0_0_1_n_n : DotDims S128x64 S64x64 S128x64 where
  lhsContracting := [1]
  rhsContracting := [0]
  lhsNonContracting := [0]
  rhsNonContracting := [1]
  lhsBatch := []
  rhsBatch := []
  wf := dot_S128x64_S64x64_S128x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf
def dot_S128x64_S64x1_S128x1_1_0_0_1_n_n : DotDims S128x64 S64x1 S128x1 where
  lhsContracting := [1]
  rhsContracting := [0]
  lhsNonContracting := [0]
  rhsNonContracting := [1]
  lhsBatch := []
  rhsBatch := []
  wf := dot_S128x64_S64x1_S128x1_1_0_0_1_n_n_wf

abbrev win0_0 : Pipeline.Window sig grid0 :=
  Pipeline.Window.ofSpec (Memref.whole main_v0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S64x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S128x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x128x1 : Shape := ⟨3, ![4096, 128, 1]⟩
abbrev S64x1 : Shape := ⟨2, ![64, 1]⟩
abbrev S64x64 : Shape := ⟨2, ![64, 64]⟩
abbrev S1x128 : Shape := ⟨2, ![1, 128]⟩
abbrev S4096x128x64 : Shape := ⟨3, ![4096, 128, 64]⟩
abbrev S_ : Shape := ⟨0, ![]⟩
abbrev S4096x64 : Shape := ⟨2, ![4096, 64]⟩
abbrev S4096x1x64 : Shape := ⟨3, ![4096, 1, 64]⟩
abbrev S1x64 : Shape := ⟨2, ![1, 64]⟩
abbrev S4096x1 : Shape := ⟨2, ![4096, 1]⟩
abbrev S4096x1x1 : Shape := ⟨3, ![4096, 1, 1]⟩

abbrev nBuf : Space → Nat
  | .hbm => 89
  | .vmem => 0
  | .smem => 0
  | _ => 0

abbrev bufTy : (tb : Table) → Fin (tcTables nBuf tb) → BufTy
  | .hbm, ⟨0, _⟩ => ⟨S4096x128x1, .f32⟩
  | .hbm, ⟨1, _⟩ => ⟨S4096x128x1, .f32⟩
  | .hbm, ⟨2, _⟩ => ⟨S64x1, .f32⟩
  | .hbm, ⟨3, _⟩ => ⟨S64x64, .f32⟩
  | .hbm, ⟨4, _⟩ => ⟨S64x64, .f32⟩
  | .hbm, ⟨5, _⟩ => ⟨S64x1, .f32⟩
  | .hbm, ⟨6, _⟩ => ⟨S1x128, .f32⟩
  | .hbm, ⟨7, _⟩ => ⟨S64x64, .f32⟩
  | .hbm, ⟨8, _⟩ => ⟨S64x64, .f32⟩
  | .hbm, ⟨9, _⟩ => ⟨S4096x128x64, .f32⟩
  | .hbm, ⟨10, _⟩ => ⟨S_, .f32⟩
  | .hbm, ⟨11, _⟩ => ⟨S4096x128x64, .f32⟩
  | .hbm, ⟨12, _⟩ => ⟨S4096x128x64, .f32⟩
  | .hbm, ⟨13, _⟩ => ⟨S_, .f32⟩
  | .hbm, ⟨14, _⟩ => ⟨S4096x64, .f32⟩
  | .hbm, ⟨15, _⟩ => ⟨S4096x1x64, .f32⟩
  | .hbm, ⟨16, _⟩ => ⟨S4096x128x64, .f32⟩
  | .hbm, ⟨17, _⟩ => ⟨S_, .f32⟩
  | .hbm, ⟨18, _⟩ => ⟨S4096x128x64, .f32⟩
  | .hbm, ⟨19, _⟩ => ⟨S_, .f32⟩
  | .hbm, ⟨20, _⟩ => ⟨S4096x64, .f32⟩
  | .hbm, ⟨21, _⟩ => ⟨S4096x1x64, .f32⟩
  | .hbm, ⟨22, _⟩ => ⟨S4096x128x64, .f32⟩
  | .hbm, ⟨23, _⟩ => ⟨S4096x128x64, .f32⟩
  | .hbm, ⟨24, _⟩ => ⟨S4096x128x64, .f32⟩
  | .hbm, ⟨25, _⟩ => ⟨S4096x128x64, .f32⟩
  | .hbm, ⟨26, _⟩ => ⟨S4096x128x64, .f32⟩
  | .hbm, ⟨27, _⟩ => ⟨S4096x128x64, .f32⟩
  | .hbm, ⟨28, _⟩ => ⟨S4096x128x64, .f32⟩
  | .hbm, ⟨29, _⟩ => ⟨S4096x128x64, .f32⟩
  | .hbm, ⟨30, _⟩ => ⟨S_, .f32⟩
  | .hbm, ⟨31, _⟩ => ⟨S4096x128x64, .f32⟩
  | .hbm, ⟨32, _⟩ => ⟨S4096x128x64, .f32⟩
  | .hbm, ⟨33, _⟩ => ⟨S_, .f32⟩
  | .hbm, ⟨34, _⟩ => ⟨S4096x64, .f32⟩
  | .hbm, ⟨35, _⟩ => ⟨S4096x1x64, .f32⟩
  | .hbm, ⟨36, _⟩ => ⟨S4096x128x64, .f32⟩
  | .hbm, ⟨37, _⟩ => ⟨S4096x128x64, .f32⟩
  | .hbm, ⟨38, _⟩ => ⟨S4096x128x64, .f32⟩
  | .hbm, ⟨39, _⟩ => ⟨S4096x128x64, .f32⟩
  | .hbm, ⟨40, _⟩ => ⟨S4096x128x64, .f32⟩
  | .hbm, ⟨41, _⟩ => ⟨S4096x128x64, .f32⟩
  | .hbm, ⟨42, _⟩ => ⟨S4096x128x64, .f32⟩
  | .hbm, ⟨43, _⟩ => ⟨S4096x128x64, .f32⟩
  | .hbm, ⟨44, _⟩ => ⟨S_, .f32⟩
  | .hbm, ⟨45, _⟩ => ⟨S4096x128x64, .f32⟩
  | .hbm, ⟨46, _⟩ => ⟨S4096x128x64, .f32⟩
  | .hbm, ⟨47, _⟩ => ⟨S_, .f32⟩
  | .hbm, ⟨48, _⟩ => ⟨S4096x64, .f32⟩
  | .hbm, ⟨49, _⟩ => ⟨S4096x1x64, .f32⟩
  | .hbm, ⟨50, _⟩ => ⟨S4096x128x64, .f32⟩
  | .hbm, ⟨51, _⟩ => ⟨S4096x128x64, .f32⟩
  | .hbm, ⟨52, _⟩ => ⟨S4096x128x64, .f32⟩
  | .hbm, ⟨53, _⟩ => ⟨S4096x128x64, .f32⟩
  | .hbm, ⟨54, _⟩ => ⟨S4096x128x64, .f32⟩
  | .hbm, ⟨55, _⟩ => ⟨S4096x128x64, .f32⟩
  | .hbm, ⟨56, _⟩ => ⟨S4096x128x64, .f32⟩
  | .hbm, ⟨57, _⟩ => ⟨S4096x128x64, .f32⟩
  | .hbm, ⟨58, _⟩ => ⟨S_, .f32⟩
  | .hbm, ⟨59, _⟩ => ⟨S4096x128x64, .f32⟩
  | .hbm, ⟨60, _⟩ => ⟨S4096x128x64, .f32⟩
  | .hbm, ⟨61, _⟩ => ⟨S_, .f32⟩
  | .hbm, ⟨62, _⟩ => ⟨S4096x64, .f32⟩
  | .hbm, ⟨63, _⟩ => ⟨S4096x1x64, .f32⟩
  | .hbm, ⟨64, _⟩ => ⟨S4096x128x64, .f32⟩
  | .hbm, ⟨65, _⟩ => ⟨S4096x128x64, .f32⟩
  | .hbm, ⟨66, _⟩ => ⟨S4096x128x64, .f32⟩
  | .hbm, ⟨67, _⟩ => ⟨S4096x128x64, .f32⟩
  | .hbm, ⟨68, _⟩ => ⟨S4096x128x64, .f32⟩
  | .hbm, ⟨69, _⟩ => ⟨S4096x128x64, .f32⟩
  | .hbm, ⟨70, _⟩ => ⟨S4096x128x64, .f32⟩
  | .hbm, ⟨71, _⟩ => ⟨S4096x128x64, .f32⟩
  | .hbm, ⟨72, _⟩ => ⟨S_, .f32⟩
  | .hbm, ⟨73, _⟩ => ⟨S4096x128x64, .f32⟩
  | .hbm, ⟨74, _⟩ => ⟨S4096x128x64, .f32⟩
  | .hbm, ⟨75, _⟩ => ⟨S_, .f32⟩
  | .hbm, ⟨76, _⟩ => ⟨S4096x64, .f32⟩
  | .hbm, ⟨77, _⟩ => ⟨S4096x64, .f32⟩
  | .hbm, ⟨78, _⟩ => ⟨S_, .f32⟩
  | .hbm, ⟨79, _⟩ => ⟨S4096x64, .f32⟩
  | .hbm, ⟨80, _⟩ => ⟨S4096x64, .f32⟩
  | .hbm, ⟨81, _⟩ => ⟨S4096x128x64, .f32⟩
  | .hbm, ⟨82, _⟩ => ⟨S1x64, .f32⟩
  | .hbm, ⟨83, _⟩ => ⟨S1x64, .f32⟩
  | .hbm, ⟨84, _⟩ => ⟨S4096x1, .f32⟩
  | .hbm, ⟨85, _⟩ => ⟨S4096x1x1, .f32⟩
  | .hbm, ⟨86, _⟩ => ⟨S4096x128x1, .f32⟩
  | .hbm, ⟨87, _⟩ => ⟨S4096x128x1, .f32⟩
  | .hbm, ⟨88, _⟩ => ⟨S4096x128x1, .f32⟩
  | _, _ => ⟨S4096x128x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_cst : Ref sig .tc := ⟨.hbm, 10, rfl⟩
abbrev main_call0_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call1_cst : Ref sig .tc := ⟨.hbm, 30, rfl⟩
abbrev main_call1_v0 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call2_cst : Ref sig .tc := ⟨.hbm, 44, rfl⟩
abbrev main_call2_v0 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call3_cst : Ref sig .tc := ⟨.hbm, 58, rfl⟩
abbrev main_call3_v0 : Ref sig .tc := ⟨.hbm, 59, rfl⟩
abbrev main_v38 : Ref sig .tc := ⟨.hbm, 60, rfl⟩
abbrev main_cst_4 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call4_cst : Ref sig .tc := ⟨.hbm, 72, rfl⟩
abbrev main_call4_v0 : Ref sig .tc := ⟨.hbm, 73, rfl⟩
abbrev main_v49 : Ref sig .tc := ⟨.hbm, 74, rfl⟩
abbrev main_cst_5 : Ref sig .tc := ⟨.hbm, 75, rfl⟩
abbrev main_v50 : Ref sig .tc := ⟨.hbm, 76, rfl⟩
abbrev main_v51 : Ref sig .tc := ⟨.hbm, 77, rfl⟩
abbrev main_call5_cst : Ref sig .tc := ⟨.hbm, 78, rfl⟩
abbrev main_call5_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩

abbrev nD : Nat := 1
abbrev τ : Topo := Topo.v7x

variable {F : FTy → Type} [FloatOps F]

class Facts₀ : Prop where
  bcast_S_S4096x128x64 : S_.BroadcastsInDim S4096x128x64 (![] : Fin 0 → Fin S4096x128x64.rank)
  reducesTo_S4096x128x64_S4096x64_d1 : S4096x128x64.ReducesTo [1] S4096x64
  h_S_ : 0 < S_.numel
  bcast_S4096x64_S4096x1x64_0_2 : S4096x64.BroadcastsInDim S4096x1x64 (![0, 2] : Fin 2 → Fin S4096x1x64.rank)
  bcast_S4096x1x64_S4096x128x64_0_1_2 : S4096x1x64.BroadcastsInDim S4096x128x64 (![0, 1, 2] : Fin 3 → Fin S4096x128x64.rank)
  bcast_S_S4096x64 : S_.BroadcastsInDim S4096x64 (![] : Fin 0 → Fin S4096x64.rank)
  slices_S1x128_S1x64_0_0 : S1x128.Slices ![0, 0] S1x64
  slices_S1x128_S1x64_0_64 : S1x128.Slices ![0, 64] S1x64
  bcast_S4096x1_S4096x1x1_0_2 : S4096x1.BroadcastsInDim S4096x1x1 (![0, 2] : Fin 2 → Fin S4096x1x1.rank)
  bcast_S4096x1x1_S4096x128x1_0_1_2 : S4096x1x1.BroadcastsInDim S4096x128x1 (![0, 1, 2] : Fin 3 → Fin S4096x128x1.rank)
  dot_S4096x128x1_S64x1_S4096x128x64_2_1_01_0_n_n_wf : DotDims.WF S4096x128x1 S64x1 S4096x128x64 [2] [1] [0, 1] [0] [] []
  dot_S4096x128x64_S64x64_S4096x128x64_2_1_01_0_n_n_wf : DotDims.WF S4096x128x64 S64x64 S4096x128x64 [2] [1] [0, 1] [0] [] []
  dot_S4096x64_S64x64_S4096x64_1_1_0_0_n_n_wf : DotDims.WF S4096x64 S64x64 S4096x64 [1] [1] [0] [0] [] []
  dot_S4096x64_S1x64_S4096x1_1_1_0_0_n_n_wf : DotDims.WF S4096x64 S1x64 S4096x1 [1] [1] [0] [0] [] []
  dot_S4096x128x64_S1x64_S4096x128x1_2_1_01_0_n_n_wf : DotDims.WF S4096x128x64 S1x64 S4096x128x1 [2] [1] [0, 1] [0] [] []

variable [Facts₀]

def dot_S4096x128x1_S64x1_S4096x128x64_2_1_01_0_n_n : DotDims S4096x128x1 S64x1 S4096x128x64 where
  lhsContracting := [2]
  rhsContracting := [1]
  lhsNonContracting := [0, 1]
  rhsNonContracting := [0]
  lhsBatch := []
  rhsBatch := []
  wf := dot_S4096x128x1_S64x1_S4096x128x64_2_1_01_0_n_n_wf
def dot_S4096x128x64_S64x64_S4096x128x64_2_1_01_0_n_n : DotDims S4096x128x64 S64x64 S4096x128x64 where
  lhsContracting := [2]
  rhsContracting := [1]
  lhsNonContracting := [0, 1]
  rhsNonContracting := [0]
  lhsBatch := []
  rhsBatch := []
  wf := dot_S4096x128x64_S64x64_S4096x128x64_2_1_01_0_n_n_wf
def dot_S4096x64_S64x64_S4096x64_1_1_0_0_n_n : DotDims S4096x64 S64x64 S4096x64 where
  lhsContracting := [1]
  rhsContracting := [1]
  lhsNonContracting := [0]
  rhsNonContracting := [0]
  lhsBatch := []
  rhsBatch := []
  wf := dot_S4096x64_S64x64_S4096x64_1_1_0_0_n_n_wf
def dot_S4096x64_S1x64_S4096x1_1_1_0_0_n_n : DotDims S4096x64 S1x64 S4096x1 where
  lhsContracting := [1]
  rhsContracting := [1]
  lhsNonContracting := [0]
  rhsNonContracting := [0]
  lhsBatch := []
  rhsBatch := []
  wf := dot_S4096x64_S1x64_S4096x1_1_1_0_0_n_n_wf
def dot_S4096x128x64_S1x64_S4096x128x1_2_1_01_0_n_n : DotDims S4096x128x64 S1x64 S4096x128x1 where
  lhsContracting := [2]
  rhsContracting := [1]
  lhsNonContracting := [0, 1]
  rhsNonContracting := [0]
  lhsBatch := []
  rhsBatch := []
  wf := dot_S4096x128x64_S1x64_S4096x128x1_2_1_01_0_n_n_wf

class Facts : Prop extends Facts₀ where

variable [Facts]
-- ==== Proof.LibBlockLayout.lean ====
/-
  Layout operations of a batch of matrices read at an entry, for generic extents.

  A kernel that works on a block of a rows, b nodes per row and c features per node moves between three spellings of it:
  the cube [a, b, c], the flat matrix [a·b, c] whose row p·b + k is node k of row p (what a matrix product takes), and
  per-row quantities [a, c] carried along the node axis through a unit middle axis [a, 1, c]. A shape cast keeps the
  row-major position, so each of these re-readings is an equation between two row-major positions; a broadcast reads the
  operand at the same coordinates with 0 on the operand's unit axes; a sum over the node axis at (p, q) is the sum over
  k of the entries (p, k, q). Nothing here uses arithmetic of the entries.
-/
import Idealize.ShloMosaic.PureOps.Ideal.Laws
import Idealize.ShloMosaic.Lib.ValueIdx
import Idealize.ShloMosaic.Lib.Pipeline.Value

noncomputable section

namespace BlockLayout

open Idealize.ShloMosaic Idealize.ShloMosaic.ValueIdx

variable {α : Type}

/-- Row p·b + k of the flat matrix is a row of it. -/
theorem flat_lt {a b n : ℕ} (hn : a * b = n) (p : Fin a) (k : Fin b) : p.val * b + k.val < n := by
  have hp := p.isLt
  have hk := k.isLt
  calc p.val * b + k.val < p.val * b + b := by omega
    _ = (p.val + 1) * b := by ring
    _ ≤ a * b := Nat.mul_le_mul_right b hp
    _ = n := hn

/-- The cube [a, b, c] cast to the flat matrix [n, c], n = a·b, reads at row p·b + k and column q the entry (p, k, q). -/
theorem shapeCast_abc_nc_apply {a b c n : ℕ} (x : (⟨3, ![a, b, c]⟩ : Shape).Idx → α)
    (h : (⟨3, ![a, b, c]⟩ : Shape).ShapeCasts ⟨2, ![n, c]⟩) (p : Fin a) (k : Fin b) (q : Fin c)
    (hlt : p.val * b + k.val < n) :
    shapeCast ⟨2, ![n, c]⟩ x h (ix2 (⟨p.val * b + k.val, hlt⟩ : Fin n) q) = x (ix3 p k q) :=
  shapeCast_apply x h _ _ (by
    rw [Shape.rowMajor_val_three, Shape.rowMajor_val_two]
    show (p.val * b + k.val) * c + q.val = (p.val * b + k.val) * c + q.val
    rfl)

/-- The flat matrix [n, c], n = a·b, cast to the cube [a, b, c] reads at (p, k, q) its row p·b + k at column q. -/
theorem shapeCast_nc_abc_apply {a b c n : ℕ} (hn : a * b = n) (y : (⟨2, ![n, c]⟩ : Shape).Idx → α)
    (h : (⟨2, ![n, c]⟩ : Shape).ShapeCasts ⟨3, ![a, b, c]⟩) (p : Fin a) (k : Fin b) (q : Fin c) :
    shapeCast ⟨3, ![a, b, c]⟩ y h (ix3 p k q) = y (ix2 (⟨p.val * b + k.val, flat_lt hn p k⟩ : Fin n) q) :=
  shapeCast_apply y h _ _ (by
    rw [Shape.rowMajor_val_three, Shape.rowMajor_val_two]
    show (p.val * b + k.val) * c + q.val = (p.val * b + k.val) * c + q.val
    rfl)

/-- A one-column matrix [n, 1], n = a·b, cast to [a, b] reads at (p, k) its row p·b + k. -/
theorem shapeCast_n1_ab_apply {a b n : ℕ} (hn : a * b = n) (y : (⟨2, ![n, 1]⟩ : Shape).Idx → α)
    (h : (⟨2, ![n, 1]⟩ : Shape).ShapeCasts ⟨2, ![a, b]⟩) (p : Fin a) (k : Fin b) :
    shapeCast ⟨2, ![a, b]⟩ y h (ix2 p k) = y (ix2 (⟨p.val * b + k.val, flat_lt hn p k⟩ : Fin n) (0 : Fin 1)) :=
  shapeCast_apply y h _ _ (by
    rw [Shape.rowMajor_val_two, Shape.rowMajor_val_two]
    show (p.val * b + k.val) * 1 + 0 = p.val * b + k.val
    omega)

/-- [a, 1, c] cast to [a, c] reads at (p, q) the entry (p, 0, q). -/
theorem shapeCast_a1c_ac_apply {a c : ℕ} (x : (⟨3, ![a, 1, c]⟩ : Shape).Idx → α)
    (h : (⟨3, ![a, 1, c]⟩ : Shape).ShapeCasts ⟨2, ![a, c]⟩) (p : Fin a) (q : Fin c) :
    shapeCast ⟨2, ![a, c]⟩ x h (ix2 p q) = x (ix3 p (0 : Fin 1) q) :=
  shapeCast_apply x h _ _ (by
    rw [Shape.rowMajor_val_three, Shape.rowMajor_val_two]
    show (p.val * 1 + 0) * c + q.val = p.val * c + q.val
    rw [Nat.mul_one, Nat.add_zero])

/-- [a, b] cast to [a, b, 1] reads at (p, k, u) the entry (p, k). -/
theorem shapeCast_ab_ab1_apply {a b : ℕ} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_two, Shape.rowMajor_val_three]
    show p.val * b + k.val = (p.val * b + k.val) * 1 + u.val
    rw [hu, Nat.mul_one, Nat.add_zero])

/-- [a, b, 1] cast to [a, b] reads at (p, k) the entry (p, k, 0). -/
theorem shapeCast_ab1_ab_apply {a b : ℕ} (x : (⟨3, ![a, b, 1]⟩ : Shape).Idx → α)
    (h : (⟨3, ![a, b, 1]⟩ : Shape).ShapeCasts ⟨2, ![a, b]⟩) (p : Fin a) (k : Fin b) :
    shapeCast ⟨2, ![a, b]⟩ x h (ix2 p k) = x (ix3 p k (0 : Fin 1)) :=
  shapeCast_apply x h _ _ (by
    rw [Shape.rowMajor_val_three, Shape.rowMajor_val_two]
    show (p.val * b + k.val) * 1 + 0 = p.val * b + k.val
    rw [Nat.mul_one, Nat.add_zero])

/-- A column [c, 1] cast to the vector [c] reads at q the entry (q, 0). -/
theorem shapeCast_c1_c_apply {c : ℕ} (x : (⟨2, ![c, 1]⟩ : Shape).Idx → α)
    (h : (⟨2, ![c, 1]⟩ : Shape).ShapeCasts ⟨1, ![c]⟩) (q : Fin c) :
    shapeCast ⟨1, ![c]⟩ x h (ix1 q) = x (ix2 q (0 : Fin 1)) :=
  shapeCast_apply x h _ _ (by
    rw [Shape.rowMajor_val_two, Shape.rowMajor_val_one]
    show q.val * 1 + 0 = q.val
    rw [Nat.mul_one, Nat.add_zero])

/-- A vector [c] cast to [1, 1, c] reads at (u, v, q) the entry q. -/
theorem shapeCast_c_11c_apply {c : ℕ} (x : (⟨1, ![c]⟩ : Shape).Idx → α)
    (h : (⟨1, ![c]⟩ : Shape).ShapeCasts ⟨3, ![1, 1, c]⟩) (u v : Fin 1) (q : Fin c) :
    shapeCast ⟨3, ![1, 1, c]⟩ x h (ix3 u v q) = x (ix1 q) :=
  shapeCast_apply x h _ _ (by
    have hu : u.val = 0 := by omega
    have hv : v.val = 0 := by omega
    rw [Shape.rowMajor_val_one, Shape.rowMajor_val_three]
    show q.val = (u.val * 1 + v.val) * c + q.val
    simp only [hu, hv, Nat.zero_mul, Nat.zero_add])

/-- A per-row quantity [a, 1, c] broadcast along the node axis reads at (p, k, q) the entry (p, 0, q). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ v h (ix3 p k q) = v (ix3 p (0 : Fin 1) q) := by
  refine broadcastTo_apply v h (ix3 p k q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A per-node scalar [a, b, 1] broadcast along the feature axis reads at (p, k, q) the entry (p, k, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (k : Fin b) (q : Fin c) :
    broadcastTo ⟨3, ![a, b, c]⟩ v h (ix3 p k q) = v (ix3 p k (0 : Fin 1)) := by
  refine broadcastTo_apply v h (ix3 p k q) (ix3 p k (0 : Fin 1)) fun ax => ?_
  match ax with
  | ⟨0, _⟩ =>
    show p.val = if a = 1 then 0 else p.val
    split
    · have := p.isLt; omega
    · rfl
  | ⟨1, _⟩ =>
    show k.val = if b = 1 then 0 else k.val
    split
    · have := k.isLt; omega
    · rfl
  | ⟨2, _⟩ => rfl

/-- A feature vector [1, 1, c] broadcast over rows and nodes reads at (p, k, q) the entry (0, 0, q). -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (k : Fin b) (q : Fin c) :
    broadcastTo ⟨3, ![a, b, c]⟩ v h (ix3 p k q) = v (ix3 (0 : Fin 1) (0 : Fin 1) q) := by
  refine broadcastTo_apply v h (ix3 p k q) (ix3 (0 : Fin 1) (0 : Fin 1) q) fun ax => ?_
  match ax with
  | ⟨0, _⟩ => rfl
  | ⟨1, _⟩ => rfl
  | ⟨2, _⟩ =>
    show q.val = if c = 1 then 0 else q.val
    split
    · have := q.isLt; omega
    · rfl

/-- A column [a, 1] broadcast along the rows' entries reads at (p, k) the entry (p, 0). -/
theorem broadcastTo_a1_ab_apply {a b : ℕ} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- The sum over the node axis of a cube [a, b, c], from the zero word, at (p, q): the sum over k of the entries
    (p, k, q) (on the extended reals; the accumulator is the sum's neutral word and is left out). -/
theorem nodeSum_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (q : Fin c) :
    multiReduction .add [1] ⟨2, ![a, c]⟩ src 0x00000000#32 h hφ hacc (ix2 p q) = ∑ k : Fin b, src (ix3 p k q) := by
  refine (Ideal.multiReduction_add_single src 0x00000000#32 h hφ hacc (ix2 p q)).trans ?_
  show ∑ k : Fin b, src (h.lift (ix2 p q) k) = ∑ k : Fin b, src (ix3 p k q)
  refine Finset.sum_congr rfl fun k _ => congrArg src (funext fun d => Fin.ext ?_)
  match d with
  | ⟨0, _⟩ => rfl
  | ⟨1, _⟩ => rfl
  | ⟨2, _⟩ => rfl

end BlockLayout

end
-- ==== Proof.LibPlainMatmul.lean ====
/-
  A plain matrix product read at an entry.

  At the exact instance a `tpu.matmul` into the zero accumulator is, at each output index, the sum over the dot's
  contraction index of the products of the operands at the indices the dimension numbers name. For the plainest
  dimension numbers — an M × K matrix times a K × N matrix, one contracted axis, no batch axis — the operand indices at
  output (y, j) and contraction coordinate k are (y, k) and (k, j), and the contraction index is its one coordinate; so
  the entry is the familiar `Σₖ a[y, k] · w[k, j]` over `Fin K`. The four coordinate facts are taken as hypotheses:
  for a concrete record each is one line (two by the record's own single-axis lemmas, two by unfolding the index
  function at a decided membership).
-/
import Idealize.ShloMosaic.PureOps.Ideal.Laws
import Idealize.ShloMosaic.Lib.ValueIdx

noncomputable section

namespace Cert.EdgeScore.Lib

open Idealize.ShloMosaic Idealize.ShloMosaic.ValueIdx

/-- Entry (y, j) of an M × K by K × N product accumulated into zero is `Σₖ a (y, k) · w (k, j)`, `k` over `Fin K`:
    the contraction index re-read as its one coordinate (`hr`, `hs`: one contracted axis of extent K), the operand
    indices by their coordinates (`hl0`, `hl1`, `hr0`, `hr1`). Nothing of real arithmetic is used, so it holds
    with infinite entries too. -/
theorem matmul_zero_ix2_apply {M K N : Nat} {φ₁ φ₂ : FTy}
    (d : DotDims ⟨2, ![M, K]⟩ ⟨2, ![K, N]⟩ ⟨2, ![M, N]⟩) (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (a : FVec Ideal ⟨2, ![M, K]⟩ φ₁) (w : FVec Ideal ⟨2, ![K, N]⟩ φ₂)
    (y : Fin M) (j : Fin N) :
    FloatOps.matmul d prec a w (constant ⟨2, ![M, N]⟩ .f32 0x00000000#32) (ix2 y j)
      = ∑ k : Fin K, a (ix2 y k) * w (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 y j) ((contrEquiv1 d K hr hs).symm k) = ix2 y k := funext fun c => Fin.ext (by
    match c with
    | ⟨0, _⟩ => exact hl0 _ _
    | ⟨1, _⟩ => exact (hl1 _ _).trans hk)
  have er : d.rhsIdx (ix2 y j) ((contrEquiv1 d K hr hs).symm k) = ix2 k j := funext fun c => Fin.ext (by
    match c with
    | ⟨0, _⟩ => exact (hr0 _ _).trans hk
    | ⟨1, _⟩ => exact hr1 _ _)
  rw [el, er]

end Cert.EdgeScore.Lib

end
-- ==== Proof.LibUnitAxis.lean ====
/-
  A unit axis inserted in the middle by a shape cast.

  An `[a, b]` array re-read in row-major order as `[a, 1, b]` has, at `(e, 0, k)`, the entry `(e, k)`: both sit at
  row-major position `e · b + k`. (The library's layout lemmas cover a leading unit axis; this is the middle one, which
  is what `v[:, None, :]` and a reshape to `(a, 1, b)` produce.)
-/
import Idealize.ShloMosaic.Lib.ValueIdx
import Idealize.ShloMosaic.Lib.Pipeline.Value

namespace UnitAxis

open Idealize.ShloMosaic Idealize.ShloMosaic.ValueIdx

/-- An `[a, b]` array cast to `[a, 1, b]` reads, at `(e, u, k)`, the operand at `(e, k)`. -/
theorem shapeCast_ab_a1b_apply {α : Type} {a b : ℕ} (x : (⟨2, ![a, b]⟩ : Shape).Idx → α)
    (h : (⟨2, ![a, b]⟩ : Shape).ShapeCasts ⟨3, ![a, 1, b]⟩) (e : Fin a) (u : Fin 1) (k : Fin b) :
    shapeCast ⟨3, ![a, 1, b]⟩ x h (ix3 e u k) = x (ix2 e k) :=
  shapeCast_apply x h _ _ (by
    have hu : u.val = 0 := by omega
    rw [Shape.rowMajor_val_two, Shape.rowMajor_val_three]
    show e.val * b + k.val = (e.val * 1 + u.val) * b + k.val
    rw [hu, Nat.mul_one, Nat.add_zero])

end UnitAxis
-- ==== Proof.KernelBody.lean ====
/-
  The kernel's body at one grid point, read entry by entry on the extended reals.

  The body holds a block of 128 batch rows. It forms xm and the rectified tm as cubes [128, 128, 64] (row, node,
  feature), adds θ₃ of (node sum of tm − tm) to xm once, then runs four rounds: the node sum of μ through θ₂ (a
  [128, 64] by [64, 64] product, carried back along the node axis), minus μ itself through θ₂ (the cube flattened to
  [16384, 64], row p·128 + k being node k of batch row p), added to the base and rectified. The readout sums μ over the
  nodes, passes it through θ₆, rectifies, contracts with the first half of θ₅, and adds μ contracted with the folded
  vector θ₅ᵇθ₇. Each statement below says what one such stage holds at an entry, as sums over the feature index p and
  the node index k; a change of float format is the identity here.
-/
import proofs.«149688_j29755533427211_2_alg».proof.Proof.Gen.KernelIdeal.Skeleton
import proofs.«149688_j29755533427211_2_alg».proof.Proof.LibBlockLayout
import proofs.«149688_j29755533427211_2_alg».proof.Proof.LibPlainMatmul
import proofs.«149688_j29755533427211_2_alg».proof.Proof.LibUnitAxis

noncomputable section

namespace Cert.MeanField.Body

open Idealize.ShloMosaic Idealize.ShloMosaic.ValueIdx Cert.KernelIdeal Cert.KernelIdeal.Gen

/-- Entry (y, j) of the 128 × 64 by 64 × 64 product into the zero accumulator: the sum over the contracted coordinate. -/
theorem mm_row {φ₁ φ₂ : FTy} (a : FVec Ideal S128x64 φ₁) (w : FVec Ideal S64x64 φ₂) (y : Fin 128) (j : Fin 64) :
    FloatOps.matmul dot_S128x64_S64x64_S128x64_1_0_0_1_n_n none a w (constant S128x64 .f32 0x00000000#32) (ix2 y j)
      = ∑ k : Fin 64, a (ix2 y k) * w (ix2 k j) :=
  Cert.EdgeScore.Lib.matmul_zero_ix2_apply dot_S128x64_S64x64_S128x64_1_0_0_1_n_n rfl rfl
    (fun i q => by
      unfold DotDims.lhsIdx
      rw [dif_neg (show ¬(0 : Fin S128x64.rank) ∈ dot_S128x64_S64x64_S128x64_1_0_0_1_n_n.lhsBatch by decide), dif_pos (show (0 : Fin S128x64.rank) ∈ dot_S128x64_S64x64_S128x64_1_0_0_1_n_n.lhsNonContracting by decide)]
      rfl)
    (fun i q => dot_S128x64_S64x64_S128x64_1_0_0_1_n_n.lhsIdx_val_of_single rfl i q)
    (fun i q => dot_S128x64_S64x64_S128x64_1_0_0_1_n_n.rhsIdx_val_of_single rfl i q)
    (fun i q => by
      unfold DotDims.rhsIdx
      rw [dif_neg (show ¬(1 : Fin S64x64.rank) ∈ dot_S128x64_S64x64_S128x64_1_0_0_1_n_n.rhsBatch by decide), dif_pos (show (1 : Fin S64x64.rank) ∈ dot_S128x64_S64x64_S128x64_1_0_0_1_n_n.rhsNonContracting by decide)]
      rfl)
    none a w y j

/-- Entry (y, j) of the 16384 × 64 by 64 × 64 product into the zero accumulator: the sum over the contracted coordinate. -/
theorem mm_flat {φ₁ φ₂ : FTy} (a : FVec Ideal S16384x64 φ₁) (w : FVec Ideal S64x64 φ₂) (y : Fin 16384) (j : Fin 64) :
    FloatOps.matmul dot_S16384x64_S64x64_S16384x64_1_0_0_1_n_n none a w (constant S16384x64 .f32 0x00000000#32) (ix2 y j)
      = ∑ k : Fin 64, a (ix2 y k) * w (ix2 k j) :=
  Cert.EdgeScore.Lib.matmul_zero_ix2_apply dot_S16384x64_S64x64_S16384x64_1_0_0_1_n_n rfl rfl
    (fun i q => by
      unfold DotDims.lhsIdx
      rw [dif_neg (show ¬(0 : Fin S16384x64.rank) ∈ dot_S16384x64_S64x64_S16384x64_1_0_0_1_n_n.lhsBatch by decide), dif_pos (show (0 : Fin S16384x64.rank) ∈ dot_S16384x64_S64x64_S16384x64_1_0_0_1_n_n.lhsNonContracting by decide)]
      rfl)
    (fun i q => dot_S16384x64_S64x64_S16384x64_1_0_0_1_n_n.lhsIdx_val_of_single rfl i q)
    (fun i q => dot_S16384x64_S64x64_S16384x64_1_0_0_1_n_n.rhsIdx_val_of_single rfl i q)
    (fun i q => by
      unfold DotDims.rhsIdx
      rw [dif_neg (show ¬(1 : Fin S64x64.rank) ∈ dot_S16384x64_S64x64_S16384x64_1_0_0_1_n_n.rhsBatch by decide), dif_pos (show (1 : Fin S64x64.rank) ∈ dot_S16384x64_S64x64_S16384x64_1_0_0_1_n_n.rhsNonContracting by decide)]
      rfl)
    none a w y j

/-- Entry (y, j) of the 16384 × 64 by 64 × 1 product into the zero accumulator: the sum over the contracted coordinate. -/
theorem mm_flat_col {φ₁ φ₂ : FTy} (a : FVec Ideal S16384x64 φ₁) (w : FVec Ideal S64x1 φ₂) (y : Fin 16384) (j : Fin 1) :
    FloatOps.matmul dot_S16384x64_S64x1_S16384x1_1_0_0_1_n_n none a w (constant S16384x1 .f32 0x00000000#32) (ix2 y j)
      = ∑ k : Fin 64, a (ix2 y k) * w (ix2 k j) :=
  Cert.EdgeScore.Lib.matmul_zero_ix2_apply dot_S16384x64_S64x1_S16384x1_1_0_0_1_n_n rfl rfl
    (fun i q => by
      unfold DotDims.lhsIdx
      rw [dif_neg (show ¬(0 : Fin S16384x64.rank) ∈ dot_S16384x64_S64x1_S16384x1_1_0_0_1_n_n.lhsBatch by decide), dif_pos (show (0 : Fin S16384x64.rank) ∈ dot_S16384x64_S64x1_S16384x1_1_0_0_1_n_n.lhsNonContracting by decide)]
      rfl)
    (fun i q => dot_S16384x64_S64x1_S16384x1_1_0_0_1_n_n.lhsIdx_val_of_single rfl i q)
    (fun i q => dot_S16384x64_S64x1_S16384x1_1_0_0_1_n_n.rhsIdx_val_of_single rfl i q)
    (fun i q => by
      unfold DotDims.rhsIdx
      rw [dif_neg (show ¬(1 : Fin S64x1.rank) ∈ dot_S16384x64_S64x1_S16384x1_1_0_0_1_n_n.rhsBatch by decide), dif_pos (show (1 : Fin S64x1.rank) ∈ dot_S16384x64_S64x1_S16384x1_1_0_0_1_n_n.rhsNonContracting by decide)]
      rfl)
    none a w y j

/-- Entry (y, j) of the 128 × 64 by 64 × 1 product into the zero accumulator: the sum over the contracted coordinate. -/
theorem mm_row_col {φ₁ φ₂ : FTy} (a : FVec Ideal S128x64 φ₁) (w : FVec Ideal S64x1 φ₂) (y : Fin 128) (j : Fin 1) :
    FloatOps.matmul dot_S128x64_S64x1_S128x1_1_0_0_1_n_n none a w (constant S128x1 .f32 0x00000000#32) (ix2 y j)
      = ∑ k : Fin 64, a (ix2 y k) * w (ix2 k j) :=
  Cert.EdgeScore.Lib.matmul_zero_ix2_apply dot_S128x64_S64x1_S128x1_1_0_0_1_n_n rfl rfl
    (fun i q => by
      unfold DotDims.lhsIdx
      rw [dif_neg (show ¬(0 : Fin S128x64.rank) ∈ dot_S128x64_S64x1_S128x1_1_0_0_1_n_n.lhsBatch by decide), dif_pos (show (0 : Fin S128x64.rank) ∈ dot_S128x64_S64x1_S128x1_1_0_0_1_n_n.lhsNonContracting by decide)]
      rfl)
    (fun i q => dot_S128x64_S64x1_S128x1_1_0_0_1_n_n.lhsIdx_val_of_single rfl i q)
    (fun i q => dot_S128x64_S64x1_S128x1_1_0_0_1_n_n.rhsIdx_val_of_single rfl i q)
    (fun i q => by
      unfold DotDims.rhsIdx
      rw [dif_neg (show ¬(1 : Fin S64x1.rank) ∈ dot_S128x64_S64x1_S128x1_1_0_0_1_n_n.rhsBatch by decide), dif_pos (show (1 : Fin S64x1.rank) ∈ dot_S128x64_S64x1_S128x1_1_0_0_1_n_n.rhsNonContracting by decide)]
      rfl)
    none a w y j

/-- The zero cube the rounds start from and are rectified against. -/
def zeroCube : FVec Ideal S128x128x64 .f32 := broadcast S128x128x64 (Scalar.ofBits .f32 0x00000000#32)

/-- A round before its rectifier: the base plus (node sum through θ₂, carried along the nodes) minus (μ through θ₂). -/
def pre (base : FVec Ideal S128x128x64 .f32) (w2 : FVec Ideal S64x64 .f32) (w2b : FVec Ideal S64x64 .bf16)
    (mu : FVec Ideal S128x128x64 .f32) : FVec Ideal S128x128x64 .f32 :=
  addf base (subf
    (broadcastTo S128x128x64 (shapeCast S128x1x64 (matmul dot_S128x64_S64x64_S128x64_1_0_0_1_n_n none
      (shapeCast S128x64 (shapeCast S128x1x64 (multiReduction .add [1] S128x64 mu 0x00000000#32 reduces_S128x128x64_S128x64 (.inl rfl) rfl)
        shapeCasts_S128x64_S128x1x64) shapeCasts_S128x1x64_S128x64)
      w2 (constant S128x64 .f32 0x00000000#32)) shapeCasts_S128x64_S128x1x64) broadcasts_S128x1x64_S128x128x64)
    (shapeCast S128x128x64 (matmul dot_S16384x64_S64x64_S16384x64_1_0_0_1_n_n none
      (truncf .bf16 (shapeCast S16384x64 mu shapeCasts_S128x128x64_S16384x64) bitsLt_bf16_f32) w2b
      (constant S16384x64 .f32 0x00000000#32)) shapeCasts_S16384x64_S128x128x64))

/-- A round: the rectified value above. -/
def round (base : FVec Ideal S128x128x64 .f32) (w2 : FVec Ideal S64x64 .f32) (w2b : FVec Ideal S64x64 .bf16)
    (mu : FVec Ideal S128x128x64 .f32) : FVec Ideal S128x128x64 .f32 :=
  maximumf (pre base w2 w2b mu) zeroCube

/-- The readout of the last embeddings. -/
def readout (w6 : FVec Ideal S64x64 .bf16) (v57 : FVec Ideal S64x1 .bf16) (w5a : FVec Ideal S64x1 .bf16)
    (mu : FVec Ideal S128x128x64 .f32) : FVec Ideal S128x128 .f32 :=
  addf
    (broadcastTo S128x128 (matmul dot_S128x64_S64x1_S128x1_1_0_0_1_n_n none
      (truncf .bf16 (maximumf (matmul dot_S128x64_S64x64_S128x64_1_0_0_1_n_n none
        (truncf .bf16 (multiReduction .add [1] S128x64 mu 0x00000000#32 reduces_S128x128x64_S128x64 (.inl rfl) rfl) bitsLt_bf16_f32)
        w6 (constant S128x64 .f32 0x00000000#32)) (broadcast S128x64 (Scalar.ofBits .f32 0x00000000#32))) bitsLt_bf16_f32)
      w5a (constant S128x1 .f32 0x00000000#32)) broadcasts_S128x1_S128x128)
    (shapeCast S128x128 (matmul dot_S16384x64_S64x1_S16384x1_1_0_0_1_n_n none
      (truncf .bf16 (shapeCast S16384x64 mu shapeCasts_S128x128x64_S16384x64) bitsLt_bf16_f32) v57
      (constant S16384x1 .f32 0x00000000#32)) shapeCasts_S16384x1_S128x128)

/-- The third round's value before its rectifier, as the body carries it out of its second part. -/
theorem pay11_eq (v7 : FVec Ideal S64x64 .f32) (v10 v20 : FVec Ideal S64x64 .bf16) (v26 v38 : FVec Ideal S128x128x64 .f32) :
    k0_pay11 (F := Ideal) v7 v10 v20 v26 v38
      = pre (k0_pay10 v10 v26 v38) v7 v20 (round (k0_pay10 v10 v26 v38) v7 v20 (round (k0_pay10 v10 v26 v38) v7 v20 zeroCube)) := rfl

/-- The stored value: the readout of the fourth round. -/
theorem pay1_eq (v7 : FVec Ideal S64x64 .f32) (v13 : FVec Ideal S64x64 .bf16) (v16 v19 : FVec Ideal S64x1 .bf16)
    (v20 : FVec Ideal S64x64 .bf16) (v43 v84 : FVec Ideal S128x128x64 .f32) :
    k0_pay1 (F := Ideal) v7 v13 v16 v19 v20 v43 v84 (Scalar.ofBits .f32 0x00000000#32)
      = readout v13 v16 v19 (round v43 v7 v20 (maximumf v84 zeroCube)) := rfl

/-- A round before its rectifier at (b, k, q). -/
theorem pre_apply (base : FVec Ideal S128x128x64 .f32) (w2 : FVec Ideal S64x64 .f32) (w2b : FVec Ideal S64x64 .bf16)
    (mu : FVec Ideal S128x128x64 .f32) (b k : Fin 128) (q : Fin 64) :
    pre base w2 w2b mu (ix3 b k q)
      = base (ix3 b k q) + ((∑ p : Fin 64, (∑ k' : Fin 128, mu (ix3 b k' p)) * w2 (ix2 p q))
          - ∑ p : Fin 64, mu (ix3 b k p) * w2b (ix2 p q)) := by
  unfold pre
  have hs : ∀ (b' : Fin 128) (p : Fin 64), multiReduction .add [1] S128x64 mu 0x00000000#32 reduces_S128x128x64_S128x64 (.inl rfl) rfl (ix2 b' p)
      = ∑ k' : Fin 128, mu (ix3 b' k' p) :=
    fun b' p => BlockLayout.nodeSum_apply mu reduces_S128x128x64_S128x64 (.inl rfl) rfl b' p
  simp only [hs, addf_apply, subf_apply, matmul, BlockLayout.broadcastTo_a1c_abc_apply, UnitAxis.shapeCast_ab_a1b_apply, mm_row,
    BlockLayout.shapeCast_a1c_ac_apply, BlockLayout.nodeSum_apply,
    BlockLayout.shapeCast_nc_abc_apply (a := 128) (b := 128) (c := 64) (n := 16384) rfl, mm_flat, truncf_apply,
    BlockLayout.shapeCast_abc_nc_apply]

/-- A round at (b, k, q). -/
theorem round_apply (base : FVec Ideal S128x128x64 .f32) (w2 : FVec Ideal S64x64 .f32) (w2b : FVec Ideal S64x64 .bf16)
    (mu : FVec Ideal S128x128x64 .f32) (b k : Fin 128) (q : Fin 64) :
    round base w2 w2b mu (ix3 b k q)
      = max (base (ix3 b k q) + ((∑ p : Fin 64, (∑ k' : Fin 128, mu (ix3 b k' p)) * w2 (ix2 p q))
          - ∑ p : Fin 64, mu (ix3 b k p) * w2b (ix2 p q))) 0 := by
  unfold round
  rw [maximumf_apply, pre_apply]
  show max _ (Ideal.ofBits .f32 0x00000000#32) = _
  rw [Ideal.ofBits_zero_f32]

/-- The readout at (b, k). -/
theorem readout_apply (w6 : FVec Ideal S64x64 .bf16) (v57 : FVec Ideal S64x1 .bf16) (w5a : FVec Ideal S64x1 .bf16)
    (mu : FVec Ideal S128x128x64 .f32) (b k : Fin 128) :
    readout w6 v57 w5a mu (ix2 b k)
      = (∑ p : Fin 64, max (∑ p' : Fin 64, (∑ k' : Fin 128, mu (ix3 b k' p')) * w6 (ix2 p' p)) 0 * w5a (ix2 p (0 : Fin 1)))
        + ∑ p : Fin 64, mu (ix3 b k p) * v57 (ix2 p (0 : Fin 1)) := by
  unfold readout
  have hz : ∀ j : S128x64.Idx, (broadcast S128x64 (Scalar.ofBits (F := Ideal) .f32 0x00000000#32)) j = 0 :=
    fun _ => Ideal.ofBits_zero_f32
  have hs : ∀ (b' : Fin 128) (p : Fin 64), multiReduction .add [1] S128x64 mu 0x00000000#32 reduces_S128x128x64_S128x64 (.inl rfl) rfl (ix2 b' p)
      = ∑ k' : Fin 128, mu (ix3 b' k' p) :=
    fun b' p => BlockLayout.nodeSum_apply mu reduces_S128x128x64_S128x64 (.inl rfl) rfl b' p
  simp only [hs, addf_apply, matmul, BlockLayout.broadcastTo_a1_ab_apply, mm_row_col, truncf_apply, maximumf_apply, mm_row,
    BlockLayout.nodeSum_apply, hz, BlockLayout.shapeCast_n1_ab_apply (a := 128) (b := 128) (n := 16384) rfl, mm_flat_col,
    BlockLayout.shapeCast_abc_nc_apply]

end Cert.MeanField.Body

end
-- ==== Proof.Spec.lean ====
/-
  The mean-field message-passing network of one batch row, as a function of real numbers, in the two arrangements
  the two programs compute it in, and the proof that the arrangements agree.

  One batch row holds 128 nodes with a scalar feature x k and a scalar weight w k. With 64-dimensional embeddings:
    xm k p = x k · w1 p,   tm k p = max (w k · w4 p) 0,
    t3 k q = Σ_p ((Σ_k' tm k' p) − tm k p) · w3 q p           (the neighbours' weights, through θ₃),
    μ⁰ = 0,   μⁿ⁺¹ k q = max (xm k q + Σ_p ((Σ_k' μⁿ k' p) − μⁿ k p) · w2 q p + t3 k q) 0,
    out k = Σ_p max (Σ_p' (Σ_k' μ⁴ k' p') · w6 p p') 0 · w5a p  +  Σ_q (Σ_p μ⁴ k p · w7 q p) · w5b q.
  The second arrangement multiplies the node sum and the node's own embedding by θ₂ separately and subtracts the
  products, adds t3 to xm once before the iteration, and contracts θ₇ with w5b first. Over the reals the two are equal:
  a product distributes over a difference, a finite sum of differences is the difference of the sums, and two finite
  sums may be exchanged.
-/
import Idealize.ShloMosaic.Lib.ValueIdx
import Idealize.ShloMosaic.PureOps.Ideal

noncomputable section

namespace Cert.MeanField

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion commutes with the maximum of two reals (it is monotone). -/
theorem coe_max (a b : ℝ) : ((max a b : ℝ) : EReal) = max (a : EReal) (b : EReal) :=
  EReal.coe_strictMono.monotone.map_max

/-- The seven weight arrays as real functions of their coordinates (w5 in its two halves). -/
structure Wts where
  w1 : Fin 64 → ℝ
  w4 : Fin 64 → ℝ
  w2 : Fin 64 → Fin 64 → ℝ
  w3 : Fin 64 → Fin 64 → ℝ
  w6 : Fin 64 → Fin 64 → ℝ
  w7 : Fin 64 → Fin 64 → ℝ
  w5a : Fin 64 → ℝ
  w5b : Fin 64 → ℝ

variable (P : Wts) (x w : Fin 128 → ℝ)

/-- θ₁ of a node's feature. -/
def xm (k : Fin 128) (p : Fin 64) : ℝ := x k * P.w1 p
/-- The rectified θ₄ of a node's weight. -/
def tm (k : Fin 128) (p : Fin 64) : ℝ := max (w k * P.w4 p) 0
/-- θ₃ of the other nodes' rectified weights. -/
def t3 (k : Fin 128) (q : Fin 64) : ℝ := ∑ p : Fin 64, ((∑ k' : Fin 128, tm P w k' p) - tm P w k p) * P.w3 q p

/-- One round of message passing, θ₂ applied to the difference. -/
def stepR (mu : Fin 128 → Fin 64 → ℝ) (k : Fin 128) (q : Fin 64) : ℝ :=
  max (xm P x k q + (∑ p : Fin 64, ((∑ k' : Fin 128, mu k' p) - mu k p) * P.w2 q p) + t3 P w k q) 0

/-- The same round, θ₂ applied to the node sum and to the node's own embedding separately. -/
def stepK (mu : Fin 128 → Fin 64 → ℝ) (k : Fin 128) (q : Fin 64) : ℝ :=
  max ((xm P x k q + t3 P w k q)
    + ((∑ p : Fin 64, (∑ k' : Fin 128, mu k' p) * P.w2 q p) - ∑ p : Fin 64, mu k p * P.w2 q p)) 0

theorem stepK_eq (mu : Fin 128 → Fin 64 → ℝ) : stepK P x w mu = stepR P x w mu := by
  funext k q
  unfold stepK stepR
  have h : (∑ p : Fin 64, ((∑ k' : Fin 128, mu k' p) - mu k p) * P.w2 q p)
      = (∑ p : Fin 64, (∑ k' : Fin 128, mu k' p) * P.w2 q p) - ∑ p : Fin 64, mu k p * P.w2 q p := by
    simp only [sub_mul, Finset.sum_sub_distrib]
  rw [h]
  congr 1
  ring

/-- The embeddings after n rounds. -/
def muR : ℕ → Fin 128 → Fin 64 → ℝ
  | 0 => fun _ _ => 0
  | n + 1 => stepR P x w (muR n)

/-- The same by the second arrangement. -/
def muK : ℕ → Fin 128 → Fin 64 → ℝ
  | 0 => fun _ _ => 0
  | n + 1 => stepK P x w (muK n)

theorem muK_eq (n : ℕ) : muK P x w n = muR P x w n := by
  induction n with
  | zero => rfl
  | succ n ih => show stepK P x w (muK P x w n) = stepR P x w (muR P x w n); rw [ih, stepK_eq]

/-- The pooled embedding through θ₆, rectified. -/
def pooled (mu : Fin 128 → Fin 64 → ℝ) (p : Fin 64) : ℝ :=
  max (∑ p' : Fin 64, (∑ k' : Fin 128, mu k' p') * P.w6 p p') 0

/-- The readout: θ₅ of the pooled part and of θ₇ of the node's embedding. -/
def outR (k : Fin 128) : ℝ :=
  (∑ p : Fin 64, pooled P (muR P x w 4) p * P.w5a p)
    + ∑ q : Fin 64, (∑ p : Fin 64, muR P x w 4 k p * P.w7 q p) * P.w5b q

/-- θ₇ contracted with the second half of θ₅. -/
def v57 (p : Fin 64) : ℝ := ∑ q : Fin 64, P.w5b q * P.w7 q p

/-- The readout with θ₇ and θ₅ contracted first. -/
def outK (k : Fin 128) : ℝ :=
  (∑ p : Fin 64, pooled P (muK P x w 4) p * P.w5a p) + ∑ p : Fin 64, muK P x w 4 k p * v57 P p

theorem outK_eq : outK P x w = outR P x w := by
  funext k
  unfold outK outR v57
  rw [muK_eq]
  congr 1
  simp only [Finset.mul_sum, Finset.sum_mul]
  rw [Finset.sum_comm]
  exact Finset.sum_congr rfl fun q _ => Finset.sum_congr rfl fun p _ => by ring

/-! ## The arrays of the two programs -/

open Idealize.ShloMosaic Idealize.ShloMosaic.ValueIdx

/-- Every entry of an array of extended reals is a real number. -/
def AllReal {S : Shape} (a : S.Idx → EReal) : Prop := ∀ i, a i ≠ ⊤ ∧ a i ≠ ⊥

theorem AllReal.eq {S : Shape} {a : S.Idx → EReal} (h : AllReal a) (i : S.Idx) : a i = (((a i).toReal : ℝ) : EReal) :=
  (EReal.coe_toReal (h i).1 (h i).2).symm

/-- The weights read off the seven weight arrays (θ₁, θ₂, θ₃, θ₄, θ₅, θ₆, θ₇ as the programs take them). -/
def wtsOf (a2 : (⟨2, ![64, 1]⟩ : Shape).Idx → EReal) (a3 a4 : (⟨2, ![64, 64]⟩ : Shape).Idx → EReal)
    (a5 : (⟨2, ![64, 1]⟩ : Shape).Idx → EReal) (a6 : (⟨2, ![1, 128]⟩ : Shape).Idx → EReal)
    (a7 a8 : (⟨2, ![64, 64]⟩ : Shape).Idx → EReal) : Wts where
  w1 p := (a2 (ix2 p (0 : Fin 1))).toReal
  w4 p := (a5 (ix2 p (0 : Fin 1))).toReal
  w2 q p := (a3 (ix2 q p)).toReal
  w3 q p := (a4 (ix2 q p)).toReal
  w6 q p := (a7 (ix2 q p)).toReal
  w7 q p := (a8 (ix2 q p)).toReal
  w5a p := (a6 (ix2 (0 : Fin 1) (⟨p.val, Nat.lt_of_lt_of_le p.isLt (by decide)⟩ : Fin 128))).toReal
  w5b q := (a6 (ix2 (0 : Fin 1) (⟨64 + q.val, by have := q.isLt; omega⟩ : Fin 128))).toReal

/-- One batch row of a feature array. -/
def rowOf (a : (⟨3, ![4096, 128, 1]⟩ : Shape).Idx → EReal) (b : Fin 4096) (k : Fin 128) : ℝ :=
  (a (ix3 b k (0 : Fin 1))).toReal

/-- The result both programs compute, as one function of the nine argument arrays: at (b, k, ·) the readout of batch
    row b at node k. -/
def G (a0 a1 : (⟨3, ![4096, 128, 1]⟩ : Shape).Idx → EReal) (a2 : (⟨2, ![64, 1]⟩ : Shape).Idx → EReal)
    (a3 a4 : (⟨2, ![64, 64]⟩ : Shape).Idx → EReal) (a5 : (⟨2, ![64, 1]⟩ : Shape).Idx → EReal)
    (a6 : (⟨2, ![1, 128]⟩ : Shape).Idx → EReal) (a7 a8 : (⟨2, ![64, 64]⟩ : Shape).Idx → EReal) :
    (⟨3, ![4096, 128, 1]⟩ : Shape).Idx → EReal := fun i =>
  ((outR (wtsOf a2 a3 a4 a5 a6 a7 a8) (rowOf a0 ⟨(i 0).val, (i 0).isLt⟩) (rowOf a1 ⟨(i 0).val, (i 0).isLt⟩)
    ⟨(i 1).val, (i 1).isLt⟩ : ℝ) : EReal)

theorem G_apply (a0 a1 : (⟨3, ![4096, 128, 1]⟩ : Shape).Idx → EReal) (a2 : (⟨2, ![64, 1]⟩ : Shape).Idx → EReal)
    (a3 a4 : (⟨2, ![64, 64]⟩ : Shape).Idx → EReal) (a5 : (⟨2, ![64, 1]⟩ : Shape).Idx → EReal)
    (a6 : (⟨2, ![1, 128]⟩ : Shape).Idx → EReal) (a7 a8 : (⟨2, ![64, 64]⟩ : Shape).Idx → EReal)
    (b : Fin 4096) (k : Fin 128) (u : Fin 1) :
    G a0 a1 a2 a3 a4 a5 a6 a7 a8 (ix3 b k u)
      = ((outR (wtsOf a2 a3 a4 a5 a6 a7 a8) (rowOf a0 b) (rowOf a1 b) k : ℝ) : EReal) := rfl

/-- The nine argument arrays hold real numbers. -/
structure ArgsReal (a0 a1 : (⟨3, ![4096, 128, 1]⟩ : Shape).Idx → EReal) (a2 : (⟨2, ![64, 1]⟩ : Shape).Idx → EReal)
    (a3 a4 : (⟨2, ![64, 64]⟩ : Shape).Idx → EReal) (a5 : (⟨2, ![64, 1]⟩ : Shape).Idx → EReal)
    (a6 : (⟨2, ![1, 128]⟩ : Shape).Idx → EReal) (a7 a8 : (⟨2, ![64, 64]⟩ : Shape).Idx → EReal) : Prop where
  r0 : AllReal a0
  r1 : AllReal a1
  r2 : AllReal a2
  r3 : AllReal a3
  r4 : AllReal a4
  r5 : AllReal a5
  r6 : AllReal a6
  r7 : AllReal a7
  r8 : AllReal a8

end Cert.MeanField

end
-- ==== Proof.KernelBlock.lean ====
/-
  The kernel's block at one grid point over real data: if the blocks the body loads hold real numbers — the batch rows'
  features and weights, the weight matrices θ₂, θ₃, θ₆ transposed, θ₁, θ₄, the first half of θ₅ and the folded vector θ₅ᵇθ₇
  as columns — then every entry (b, k) of the stored block is the real readout of batch row b at node k, in the second
  arrangement of the specification.

  Every stage keeps real values real: a product, a sum, a difference and a maximum of reals are the reals' own, so the
  coercion into the extended reals is pushed through each stage's entry formula.
-/
import proofs.«149688_j29755533427211_2_alg».proof.Proof.Gen.KernelIdeal.Frame
import proofs.«149688_j29755533427211_2_alg».proof.Proof.KernelBody
import proofs.«149688_j29755533427211_2_alg».proof.Proof.Spec

noncomputable section

namespace Cert.MeanField.Block

open Idealize.ShloMosaic Idealize.ShloMosaic.ValueIdx Cert.KernelIdeal Cert.KernelIdeal.Gen Cert.MeanField Cert.MeanField.Body

theorem hz2 : (![0, 0] : Fin 2 → Nat) = fun _ => 0 := funext fun a => by fin_cases a <;> rfl

/-- The node sum of a cube as the body spells it, at (b, p). -/
theorem nodeSum128 (src : FVec Ideal S128x128x64 .f32) (b' : Fin 128) (p : Fin 64) :
    multiReduction .add [1] S128x64 src 0x00000000#32 reduces_S128x128x64_S128x64 (.inl rfl) rfl (ix2 b' p)
      = ∑ k' : Fin 128, src (ix3 b' k' p) :=
  BlockLayout.nodeSum_apply src reduces_S128x128x64_S128x64 (.inl rfl) rfl b' p

theorem zero128 (j : S128x128x64.Idx) : (broadcast S128x128x64 (Scalar.ofBits (F := Ideal) .f32 0x00000000#32)) j = 0 :=
  Ideal.ofBits_zero_f32

/-! ## The loaded blocks' first uses -/

theorem pay2_apply (x4 : Vec Ideal S64x64 .f32) (j : S64x64.Idx) : k0_pay2 x4 j = x4 j := by
  unfold k0_pay2; rw [shapeCast_self]
theorem pay3_apply (x5 : Vec Ideal S64x64 .f32) (j : S64x64.Idx) : k0_pay3 x5 j = x5 j := by
  unfold k0_pay3; rw [truncf_apply, shapeCast_self]
theorem pay4_apply (x6 : Vec Ideal S64x64 .f32) (j : S64x64.Idx) : k0_pay4 x6 j = x6 j := by
  unfold k0_pay4; rw [truncf_apply, shapeCast_self]
theorem pay5_apply (x7 : Vec Ideal S64x1 .f32) (j : S64x1.Idx) : k0_pay5 x7 j = x7 j := by
  unfold k0_pay5; rw [truncf_apply, shapeCast_self]
theorem pay6_apply (x8 : Vec Ideal S64x1 .f32) (j : S64x1.Idx) : k0_pay6 x8 j = x8 j := by
  unfold k0_pay6; rw [truncf_apply, shapeCast_self]
theorem pay7_apply (x4 : Vec Ideal S64x64 .f32) (j : S64x64.Idx) : k0_pay7 x4 j = x4 j := by
  unfold k0_pay7; rw [truncf_apply, pay2_apply]

/-- θ₁ of the features: the outer product of the feature block and the θ₁ column. -/
theorem pay8_apply (x0 : Vec Ideal S128x128 .f32) (x2 : Vec Ideal S64x1 .f32) (b k : Fin 128) (p : Fin 64) :
    k0_pay8 x0 x2 (ix3 b k p) = x0 (ix2 b k) * x2 (ix2 p (0 : Fin 1)) := by
  unfold k0_pay8
  simp only [mulf_apply, BlockLayout.broadcastTo_ab1_abc_apply, BlockLayout.shapeCast_ab_ab1_apply, shapeCast_self,
    BlockLayout.broadcastTo_11c_abc_apply, BlockLayout.shapeCast_c_11c_apply, BlockLayout.shapeCast_c1_c_apply]

/-- The node sum of the rectified θ₄ of the weights, minus the node's own. -/
theorem pay9_apply (x1 : Vec Ideal S128x128 .f32) (x3 : Vec Ideal S64x1 .f32) (b k : Fin 128) (p : Fin 64) :
    k0_pay9 x1 x3 (ix3 b k p)
      = (∑ k' : Fin 128, max (x1 (ix2 b k') * x3 (ix2 p (0 : Fin 1))) 0) - max (x1 (ix2 b k) * x3 (ix2 p (0 : Fin 1))) 0 := by
  unfold k0_pay9
  have hs := nodeSum128
  simp only [hs, subf_apply, maximumf_apply, zero128, BlockLayout.broadcastTo_a1c_abc_apply, UnitAxis.shapeCast_ab_a1b_apply,
    nodeSum128, mulf_apply, BlockLayout.broadcastTo_ab1_abc_apply, BlockLayout.shapeCast_ab_ab1_apply, shapeCast_self,
    BlockLayout.broadcastTo_11c_abc_apply, BlockLayout.shapeCast_c_11c_apply, BlockLayout.shapeCast_c1_c_apply]

/-- The base of the rounds: θ₁ of the features plus θ₃ of the difference. -/
theorem pay10_apply (v10 : FVec Ideal S64x64 .bf16) (v26 v38 : FVec Ideal S128x128x64 .f32) (b k : Fin 128) (q : Fin 64) :
    k0_pay10 v10 v26 v38 (ix3 b k q) = v26 (ix3 b k q) + ∑ p : Fin 64, v38 (ix3 b k p) * v10 (ix2 p q) := by
  unfold k0_pay10
  simp only [addf_apply, matmul, BlockLayout.shapeCast_nc_abc_apply (a := 128) (b := 128) (c := 64) (n := 16384) rfl, mm_flat,
    truncf_apply, BlockLayout.shapeCast_abc_nc_apply]

/-! ## The stored block as four rounds and a readout -/

section
variable (x0 x1 : Vec Ideal S128x128 .f32) (x2 x3 : Vec Ideal S64x1 .f32) (x4 x5 x6 : Vec Ideal S64x64 .f32)
  (x7 x8 : Vec Ideal S64x1 .f32)

/-- The base cube of the loaded blocks. -/
def baseOf : FVec Ideal S128x128x64 .f32 := k0_pay10 (k0_pay3 x5) (k0_pay8 x0 x2) (k0_pay9 x1 x3)

/-- The embeddings after n rounds. -/
def muOf : ℕ → FVec Ideal S128x128x64 .f32
  | 0 => zeroCube
  | n + 1 => round (baseOf x0 x1 x2 x3 x5) (k0_pay2 x4) (k0_pay7 x4) (muOf n)

/-- What the body leaves in the output window's buffer: the readout of the fourth round. -/
theorem out_eq : out0_9 x0 x1 x2 x3 x4 x5 x6 x7 x8
    = readout (k0_pay4 x6) (k0_pay5 x7) (k0_pay6 x8) (muOf x0 x1 x2 x3 x4 x5 4) := by
  unfold out0_9
  rw [View.canon_unit_zero hz2]
  simp only [View.ld_unit_zero (S := S128x128) hz2, View.ld_unit_zero (S := S64x1) hz2, View.ld_unit_zero (S := S64x64) hz2]
  rw [pay1_eq, pay11_eq]
  rfl

variable (P : Wts) (xr wr : Fin 128 → Fin 128 → ℝ)

/-- The loaded blocks hold these real numbers. -/
structure Holds : Prop where
  hx0 : ∀ (b k : Fin 128), (x0 (ix2 b k) : EReal) = ((xr b k : ℝ) : EReal)
  hx1 : ∀ (b k : Fin 128), (x1 (ix2 b k) : EReal) = ((wr b k : ℝ) : EReal)
  hx2 : ∀ p : Fin 64, (x2 (ix2 p (0 : Fin 1)) : EReal) = ((P.w1 p : ℝ) : EReal)
  hx3 : ∀ p : Fin 64, (x3 (ix2 p (0 : Fin 1)) : EReal) = ((P.w4 p : ℝ) : EReal)
  hx4 : ∀ p q : Fin 64, (x4 (ix2 p q) : EReal) = ((P.w2 q p : ℝ) : EReal)
  hx5 : ∀ p q : Fin 64, (x5 (ix2 p q) : EReal) = ((P.w3 q p : ℝ) : EReal)
  hx6 : ∀ p q : Fin 64, (x6 (ix2 p q) : EReal) = ((P.w6 q p : ℝ) : EReal)
  hx7 : ∀ p : Fin 64, (x7 (ix2 p (0 : Fin 1)) : EReal) = ((v57 P p : ℝ) : EReal)
  hx8 : ∀ p : Fin 64, (x8 (ix2 p (0 : Fin 1)) : EReal) = ((P.w5a p : ℝ) : EReal)

variable {x0 x1 x2 x3 x4 x5 x6 x7 x8 P xr wr}
variable (H : Holds x0 x1 x2 x3 x4 x5 x6 x7 x8 P xr wr)
include H

/-- The base cube is real: θ₁ of the feature plus θ₃ of the others' rectified weights. -/
theorem base_real (b k : Fin 128) (q : Fin 64) :
    (baseOf x0 x1 x2 x3 x5 (ix3 b k q) : EReal) = ((xm P (xr b) k q + t3 P (wr b) k q : ℝ) : EReal) := by
  unfold baseOf
  rw [pay10_apply, pay8_apply]
  simp only [pay9_apply, pay3_apply, H.hx0, H.hx1, H.hx2, H.hx3, H.hx5]
  simp only [xm, t3, tm, EReal.coe_add, coe_sum, EReal.coe_mul, EReal.coe_sub, coe_max, EReal.coe_zero]

/-- A round keeps real embeddings real. -/
theorem round_real (mu : FVec Ideal S128x128x64 .f32) (mur : Fin 128 → Fin 128 → Fin 64 → ℝ)
    (hmu : ∀ (b k : Fin 128) (p : Fin 64), (mu (ix3 b k p) : EReal) = ((mur b k p : ℝ) : EReal)) (b k : Fin 128) (q : Fin 64) :
    (round (baseOf x0 x1 x2 x3 x5) (k0_pay2 x4) (k0_pay7 x4) mu (ix3 b k q) : EReal)
      = ((stepK P (xr b) (wr b) (mur b) k q : ℝ) : EReal) := by
  rw [round_apply]
  simp only [base_real H, hmu, pay2_apply, pay7_apply, H.hx4]
  simp only [stepK, EReal.coe_add, coe_sum, EReal.coe_mul, EReal.coe_sub, coe_max, EReal.coe_zero]

/-- The embeddings after n rounds are the specification's. -/
theorem mu_real (n : ℕ) : ∀ (b k : Fin 128) (p : Fin 64),
    (muOf x0 x1 x2 x3 x4 x5 n (ix3 b k p) : EReal) = ((muK P (xr b) (wr b) n k p : ℝ) : EReal) := by
  induction n with
  | zero =>
    intro b k p
    show Ideal.ofBits .f32 0x00000000#32 = (((0 : ℝ)) : EReal)
    rw [Ideal.ofBits_zero_f32, EReal.coe_zero]
  | succ n ih =>
    intro b k p
    exact round_real H (muOf x0 x1 x2 x3 x4 x5 n) (fun b k p => muK P (xr b) (wr b) n k p) ih b k p

/-- The stored block at (b, k) is the real readout of batch row b at node k. -/
theorem block_out (b k : Fin 128) :
    (out0_9 x0 x1 x2 x3 x4 x5 x6 x7 x8 (ix2 b k) : EReal) = ((outK P (xr b) (wr b) k : ℝ) : EReal) := by
  rw [out_eq, readout_apply]
  simp only [mu_real H, pay4_apply, pay5_apply, pay6_apply, H.hx6, H.hx7, H.hx8]
  simp only [outK, pooled, EReal.coe_add, coe_sum, EReal.coe_mul, coe_max, EReal.coe_zero]

end

end Cert.MeanField.Block

end
-- ==== Proof.LibHostProduct.lean ====
/-
  The host's plain matrix product read at an entry.

  On the extended reals a host dot_general of an M × K by a K × N matrix (one contracted axis, no batch axis) is, at entry
  (y, j), the sum over the contracted coordinate k of a (y, k) · w (k, j): the contraction index is its one coordinate,
  and the operands' indices at an output index are named by the record's dimension numbers. The four coordinate facts
  are hypotheses (each is one line on a concrete record). No arithmetic of the entries is used.
-/
import Idealize.ShloMosaic.PureOps.Ideal.Laws
import Idealize.ShloMosaic.Lib.ValueIdx

noncomputable section

namespace HostProduct

open Idealize.ShloMosaic Idealize.ShloMosaic.ValueIdx

/-- Entry (y, j) of the host's M × K by K × N product: Σₖ a (y, k) · w (k, j), k over Fin K, whatever the schedule key. -/
theorem dotGeneral_ix2_apply {M K N : Nat} {φ₁ φ₂ : FTy}
    (d : DotDims ⟨2, ![M, K]⟩ ⟨2, ![K, N]⟩ ⟨2, ![M, N]⟩) (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (sched : HostSchedule) (a : FVec Ideal ⟨2, ![M, K]⟩ φ₁) (w : FVec Ideal ⟨2, ![K, N]⟩ φ₂)
    (y : Fin M) (j : Fin N) :
    FloatOps.dotGeneral d prec sched a w (ix2 y j) = ∑ k : Fin K, a (ix2 y k) * w (ix2 k j) := by
  rw [Ideal.dotGeneral_apply, ← Equiv.sum_comp (contrEquiv1 d K hr hs).symm]
  refine Finset.sum_congr rfl fun k _ => ?_
  have hk := contrEquiv1_symm_val d K hr hs k
  have el : d.lhsIdx (ix2 y j) ((contrEquiv1 d K hr hs).symm k) = ix2 y k := funext fun c => Fin.ext (by
    match c with
    | ⟨0, _⟩ => exact hl0 _ _
    | ⟨1, _⟩ => exact (hl1 _ _).trans hk)
  have er : d.rhsIdx (ix2 y j) ((contrEquiv1 d K hr hs).symm k) = ix2 k j := funext fun c => Fin.ext (by
    match c with
    | ⟨0, _⟩ => exact (hr0 _ _).trans hk
    | ⟨1, _⟩ => exact hr1 _ _)
  rw [el, er]

end HostProduct

end
-- ==== Proof.KernelValue.lean ====
/-
  The kernel's program as a whole: what its result array holds when the argument arrays hold real numbers.

  Before the pallas_call the host drops the trailing unit axis of the feature and weight arrays, transposes θ₂, θ₃, θ₆,
  cuts θ₅ into its halves (the first transposed into a column) and contracts the second half with θ₇ into the folded
  column. Grid point t of 32 stages rows 128·t … 128·t + 127 of the two [4096, 128] arrays and the whole of every weight
  array; the body's stored block is therefore, at (b', k), the readout of batch row 128·t + b' at node k. The 32 output
  blocks tile the [4096, 128] result, and the host's last reshape puts the unit axis back.
-/
import proofs.«149688_j29755533427211_2_alg».proof.Proof.Gen.KernelIdeal.Frame
import proofs.«149688_j29755533427211_2_alg».proof.Proof.KernelBlock
import proofs.«149688_j29755533427211_2_alg».proof.Proof.LibHostProduct
import Idealize.ShloMosaic.Lib.StableHlo.Run
import Idealize.ShloMosaic.Lib.ValueLayout

noncomputable section

namespace Cert.MeanField.KValue

open Idealize.ShloMosaic Idealize.ShloMosaic.ValueIdx Idealize.ShloMosaic.TcCoe Idealize.SL.Sem
open Cert.KernelIdeal Cert.KernelIdeal.Gen Cert.MeanField

variable (m : (ℓ : Loc nD τ sig) → Buf (Elt Ideal) ℓ) (ρ : Dev nD → PrngReg) (c : Dev nD)

/-! ## The arrays the region finds -/

theorem v0_at (b : Fin 4096) (k : Fin 128) :
    (V m c main_v0 : S4096x128.Idx → EReal) (ix2 b k) = m ((c : Thread nD τ).loc main_arg0) (ix3 b k (0 : Fin 1)) := by
  have e : (V m c main_v0 : S4096x128.Idx → EReal)
      = shapeCast S4096x128 (m ((c : Thread nD τ).loc main_arg0)) shapeCasts_S4096x128x1_S4096x128 := by
    show StableHlo.after hostOps0 (fun b => m (c, b)) (Proc.devRef .tc main_v0) = _
    after_results <;> rfl
  rw [e]; exact BlockLayout.shapeCast_ab1_ab_apply _ _ b k

theorem v1_at (b : Fin 4096) (k : Fin 128) :
    (V m c main_v1 : S4096x128.Idx → EReal) (ix2 b k) = m ((c : Thread nD τ).loc main_arg1) (ix3 b k (0 : Fin 1)) := by
  have e : (V m c main_v1 : S4096x128.Idx → EReal)
      = shapeCast S4096x128 (m ((c : Thread nD τ).loc main_arg1)) shapeCasts_S4096x128x1_S4096x128 := by
    show StableHlo.after hostOps0 (fun b => m (c, b)) (Proc.devRef .tc main_v1) = _
    after_results <;> rfl
  rw [e]; exact BlockLayout.shapeCast_ab1_ab_apply _ _ b k

theorem v2_at (p q : Fin 64) :
    (V m c main_v2 : S64x64.Idx → EReal) (ix2 p q) = m ((c : Thread nD τ).loc main_arg3) (ix2 q p) := by
  have e : (V m c main_v2 : S64x64.Idx → EReal)
      = transpose S64x64 [1, 0] (m ((c : Thread nD τ).loc main_arg3)) transposes_S64x64_S64x64_1_0 := by
    show StableHlo.after hostOps0 (fun b => m (c, b)) (Proc.devRef .tc main_v2) = _
    after_results <;> rfl
  rw [e] <;> exact transpose_ix2_apply _ _ p q

theorem v3_at (p q : Fin 64) :
    (V m c main_v3 : S64x64.Idx → EReal) (ix2 p q) = m ((c : Thread nD τ).loc main_arg4) (ix2 q p) := by
  have e : (V m c main_v3 : S64x64.Idx → EReal)
      = transpose S64x64 [1, 0] (m ((c : Thread nD τ).loc main_arg4)) transposes_S64x64_S64x64_1_0 := by
    show StableHlo.after hostOps0 (fun b => m (c, b)) (Proc.devRef .tc main_v3) = _
    after_results <;> rfl
  rw [e] <;> exact transpose_ix2_apply _ _ p q

theorem v4_at (p q : Fin 64) :
    (V m c main_v4 : S64x64.Idx → EReal) (ix2 p q) = m ((c : Thread nD τ).loc main_arg7) (ix2 q p) := by
  have e : (V m c main_v4 : S64x64.Idx → EReal)
      = transpose S64x64 [1, 0] (m ((c : Thread nD τ).loc main_arg7)) transposes_S64x64_S64x64_1_0 := by
    show StableHlo.after hostOps0 (fun b => m (c, b)) (Proc.devRef .tc main_v4) = _
    after_results <;> rfl
  rw [e] <;> exact transpose_ix2_apply _ _ p q

/-- The first half of θ₅ as a column. -/
theorem v7_at (p : Fin 64) :
    (V m c main_v7 : S64x1.Idx → EReal) (ix2 p (0 : Fin 1))
      = m ((c : Thread nD τ).loc main_arg6) (ix2 (0 : Fin 1) (⟨p.val, Nat.lt_of_lt_of_le p.isLt (by decide)⟩ : Fin 128)) := by
  have e : (V m c main_v7 : S64x1.Idx → EReal)
      = transpose S64x1 [1, 0] (extractStridedSlice S1x64 ![0, 0] (m ((c : Thread nD τ).loc main_arg6)) slices_S1x128_S1x64_0_0)
          transposes_S1x64_S64x1_1_0 := by
    show StableHlo.after hostOps0 (fun b => m (c, b)) (Proc.devRef .tc main_v7) = _
    after_results <;> rfl
  rw [e, transpose_ix2_apply] <;> exact slice2_axis1_apply 0 _ _ (0 : Fin 1) p _ (Nat.zero_add _).symm

/-- The host's product of the second half of θ₅ with θ₇, entry (0, j). -/
theorem hostDot_at {φ₁ φ₂ : FTy} (a : FVec Ideal S1x64 φ₁) (w : FVec Ideal S64x64 φ₂) (y : Fin 1) (j : Fin 64) :
    Host.dotGeneral dot_S1x64_S64x64_S1x64_1_0_0_1_n_n none a w (ix2 y j) = ∑ k : Fin 64, a (ix2 y k) * w (ix2 k j) :=
  HostProduct.dotGeneral_ix2_apply dot_S1x64_S64x64_S1x64_1_0_0_1_n_n rfl rfl
    (fun i q => by
      unfold DotDims.lhsIdx
      rw [dif_neg (show ¬(0 : Fin S1x64.rank) ∈ dot_S1x64_S64x64_S1x64_1_0_0_1_n_n.lhsBatch by decide), dif_pos (show (0 : Fin S1x64.rank) ∈ dot_S1x64_S64x64_S1x64_1_0_0_1_n_n.lhsNonContracting by decide)]
      rfl)
    (fun i q => dot_S1x64_S64x64_S1x64_1_0_0_1_n_n.lhsIdx_val_of_single rfl i q)
    (fun i q => dot_S1x64_S64x64_S1x64_1_0_0_1_n_n.rhsIdx_val_of_single rfl i q)
    (fun i q => by
      unfold DotDims.rhsIdx
      rw [dif_neg (show ¬(1 : Fin S64x64.rank) ∈ dot_S1x64_S64x64_S1x64_1_0_0_1_n_n.rhsBatch by decide), dif_pos (show (1 : Fin S64x64.rank) ∈ dot_S1x64_S64x64_S1x64_1_0_0_1_n_n.rhsNonContracting by decide)]
      rfl)
    none .single a w y j

/-- An entry of an array, typed as an extended real. -/
def at2 {S : Shape} (a : S.Idx → EReal) (i : S.Idx) : EReal := a i

/-- Entry q of the second half of θ₅. -/
def w5bAt (a6 : S1x128.Idx → EReal) (q : Fin 64) : EReal :=
  a6 (ix2 (0 : Fin 1) (⟨64 + q.val, by have := q.isLt; omega⟩ : Fin 128))

/-- The folded column: the second half of θ₅ contracted with θ₇. -/
theorem v9_at (p : Fin 64) :
    @Eq EReal ((V m c main_v9 : S64x1.Idx → EReal) (ix2 p (0 : Fin 1)))
      (∑ q : Fin 64, w5bAt (m ((c : Thread nD τ).loc main_arg6)) q * at2 (m ((c : Thread nD τ).loc main_arg8)) (ix2 q p)) := by
  have e : (V m c main_v9 : S64x1.Idx → EReal)
      = transpose S64x1 [1, 0] (Host.dotGeneral (F := Ideal) (φ₁ := .f32) (φ₂ := .f32) dot_S1x64_S64x64_S1x64_1_0_0_1_n_n none
          (extractStridedSlice S1x64 ![0, 64] (m ((c : Thread nD τ).loc main_arg6) : FVec Ideal S1x128 .f32) slices_S1x128_S1x64_0_64)
          (m ((c : Thread nD τ).loc main_arg8) : FVec Ideal S64x64 .f32)) transposes_S1x64_S64x1_1_0 := by
    show StableHlo.after hostOps0 (fun b => m (c, b)) (Proc.devRef .tc main_v9) = _
    after_results <;> rfl
  unfold at2 w5bAt
  rw [e, transpose_ix2_apply, hostDot_at]
  refine Finset.sum_congr rfl fun q _ => congrArg (· * _) ?_
  exact slice2_axis1_apply 64 _ _ (0 : Fin 1) q _ rfl

end Cert.MeanField.KValue

end
-- ==== Proof.KernelRun.lean ====
/-
  The kernel's run: every grid point's stored block is a block of one function of the argument arrays, the blocks tile
  the result, and the host's last reshape gives the result array.
-/
import proofs.«149688_j29755533427211_2_alg».proof.Proof.KernelValue

noncomputable section

namespace Cert.MeanField.KValue

open Idealize.ShloMosaic Idealize.ShloMosaic.ValueIdx Idealize.ShloMosaic.TcCoe Idealize.SL.Sem
open Cert.KernelIdeal Cert.KernelIdeal.Gen Cert.MeanField

variable (m : (ℓ : Loc nD τ sig) → Buf (Elt Ideal) ℓ) (ρ : Dev nD → PrngReg) (c : Dev nD)

/-- The printed index maps over the grid: the two row-blocked inputs and the output are at block (t, 0), every weight
    array at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

theorem t_lt (t : Fin cfg0.N) : t.val < 32 := Nat.lt_of_lt_of_eq t.isLt N_0

/-- The batch row that row b' of grid point t's block is. -/
def gRow (t : Fin cfg0.N) (b' : Fin 128) : Fin 4096 :=
  ⟨t.val * 128 + b'.val, by have := t_lt t; have := b'.isLt; omega⟩

/-! ## The blocks the body loads -/

theorem blk0_at (t : Fin cfg0.N) (b' k : Fin 128) :
    (iblk m c 0 t : S128x128.Idx → EReal) (ix2 b' k) = m ((c : Thread nD τ).loc main_arg0) (ix3 (gRow t b') k (0 : Fin 1)) := by
  show (V m c main_v0 : S4096x128.Idx → EReal) (((cfg0.win 0).blk t).view.emb (ix2 b' k)) = _
  have e : ((cfg0.win 0).blk t).view.emb (ix2 b' k) = ix2 (gRow t b') k := by
    obtain ⟨e0, e1, -⟩ := idx_facts t
    funext a; apply Fin.ext
    match a with
    | ⟨0, _⟩ => show win0_0.index t (0 : Fin 2) * 128 + 1 * b'.val = t.val * 128 + b'.val; rw [e0]; omega
    | ⟨1, _⟩ => show win0_0.index t (1 : Fin 2) * 128 + 1 * k.val = k.val; rw [e1]; omega
  rw [e]; exact v0_at m c _ k

theorem blk1_at (t : Fin cfg0.N) (b' k : Fin 128) :
    (iblk m c 1 t : S128x128.Idx → EReal) (ix2 b' k) = m ((c : Thread nD τ).loc main_arg1) (ix3 (gRow t b') k (0 : Fin 1)) := by
  show (V m c main_v1 : S4096x128.Idx → EReal) (((cfg0.win 1).blk t).view.emb (ix2 b' k)) = _
  have e : ((cfg0.win 1).blk t).view.emb (ix2 b' k) = ix2 (gRow t b') k := by
    obtain ⟨-, -, e0, e1, -⟩ := idx_facts t
    funext a; apply Fin.ext
    match a with
    | ⟨0, _⟩ => show win0_1.index t (0 : Fin 2) * 128 + 1 * b'.val = t.val * 128 + b'.val; rw [e0]; omega
    | ⟨1, _⟩ => show win0_1.index t (1 : Fin 2) * 128 + 1 * k.val = k.val; rw [e1]; omega
  rw [e]; exact v1_at m c _ k

theorem blk2_at (t : Fin cfg0.N) (p : Fin 64) :
    (iblk m c 2 t : S64x1.Idx → EReal) (ix2 p (0 : Fin 1)) = m ((c : Thread nD τ).loc main_arg2) (ix2 p (0 : Fin 1)) := by
  show (V m c main_arg2 : S64x1.Idx → EReal) (((cfg0.win 2).blk t).view.emb (ix2 p (0 : Fin 1))) = _
  have e : ((cfg0.win 2).blk t).view.emb (ix2 p (0 : Fin 1)) = ix2 p (0 : Fin 1) := by
    obtain ⟨-, -, -, -, e0, e1, -⟩ := idx_facts t
    funext a; apply Fin.ext
    match a with
    | ⟨0, _⟩ => show win0_2.index t (0 : Fin 2) * 64 + 1 * p.val = p.val; rw [e0]; omega
    | ⟨1, _⟩ => show win0_2.index t (1 : Fin 2) * 1 + 1 * 0 = 0; rw [e1]
  rw [e, V_main_arg2]

theorem blk3_at (t : Fin cfg0.N) (p : Fin 64) :
    (iblk m c 3 t : S64x1.Idx → EReal) (ix2 p (0 : Fin 1)) = m ((c : Thread nD τ).loc main_arg5) (ix2 p (0 : Fin 1)) := by
  show (V m c main_arg5 : S64x1.Idx → EReal) (((cfg0.win 3).blk t).view.emb (ix2 p (0 : Fin 1))) = _
  have e : ((cfg0.win 3).blk t).view.emb (ix2 p (0 : Fin 1)) = ix2 p (0 : Fin 1) := by
    obtain ⟨-, -, -, -, -, -, e0, e1, -⟩ := idx_facts t
    funext a; apply Fin.ext
    match a with
    | ⟨0, _⟩ => show win0_3.index t (0 : Fin 2) * 64 + 1 * p.val = p.val; rw [e0]; omega
    | ⟨1, _⟩ => show win0_3.index t (1 : Fin 2) * 1 + 1 * 0 = 0; rw [e1]
  rw [e, V_main_arg5]

theorem blk4_at (t : Fin cfg0.N) (p q : Fin 64) :
    (iblk m c 4 t : S64x64.Idx → EReal) (ix2 p q) = m ((c : Thread nD τ).loc main_arg3) (ix2 q p) := by
  show (V m c main_v2 : S64x64.Idx → EReal) (((cfg0.win 4).blk t).view.emb (ix2 p q)) = _
  have e : ((cfg0.win 4).blk t).view.emb (ix2 p q) = ix2 p q := by
    obtain ⟨-, -, -, -, -, -, -, -, e0, e1, -⟩ := idx_facts t
    funext a; apply Fin.ext
    match a with
    | ⟨0, _⟩ => show win0_4.index t (0 : Fin 2) * 64 + 1 * p.val = p.val; rw [e0]; omega
    | ⟨1, _⟩ => show win0_4.index t (1 : Fin 2) * 64 + 1 * q.val = q.val; rw [e1]; omega
  rw [e]; exact v2_at m c p q

theorem blk5_at (t : Fin cfg0.N) (p q : Fin 64) :
    (iblk m c 5 t : S64x64.Idx → EReal) (ix2 p q) = m ((c : Thread nD τ).loc main_arg4) (ix2 q p) := by
  show (V m c main_v3 : S64x64.Idx → EReal) (((cfg0.win 5).blk t).view.emb (ix2 p q)) = _
  have e : ((cfg0.win 5).blk t).view.emb (ix2 p q) = ix2 p q := by
    obtain ⟨-, -, -, -, -, -, -, -, -, -, e0, e1, -⟩ := idx_facts t
    funext a; apply Fin.ext
    match a with
    | ⟨0, _⟩ => show win0_5.index t (0 : Fin 2) * 64 + 1 * p.val = p.val; rw [e0]; omega
    | ⟨1, _⟩ => show win0_5.index t (1 : Fin 2) * 64 + 1 * q.val = q.val; rw [e1]; omega
  rw [e]; exact v3_at m c p q

theorem blk6_at (t : Fin cfg0.N) (p q : Fin 64) :
    (iblk m c 6 t : S64x64.Idx → EReal) (ix2 p q) = m ((c : Thread nD τ).loc main_arg7) (ix2 q p) := by
  show (V m c main_v4 : S64x64.Idx → EReal) (((cfg0.win 6).blk t).view.emb (ix2 p q)) = _
  have e : ((cfg0.win 6).blk t).view.emb (ix2 p q) = ix2 p q := by
    obtain ⟨-, -, -, -, -, -, -, -, -, -, -, -, e0, e1, -⟩ := idx_facts t
    funext a; apply Fin.ext
    match a with
    | ⟨0, _⟩ => show win0_6.index t (0 : Fin 2) * 64 + 1 * p.val = p.val; rw [e0]; omega
    | ⟨1, _⟩ => show win0_6.index t (1 : Fin 2) * 64 + 1 * q.val = q.val; rw [e1]; omega
  rw [e]; exact v4_at m c p q

theorem blk7_at (t : Fin cfg0.N) (p : Fin 64) :
    @Eq EReal ((iblk m c 7 t : S64x1.Idx → EReal) (ix2 p (0 : Fin 1)))
      (∑ q : Fin 64, w5bAt (m ((c : Thread nD τ).loc main_arg6)) q * at2 (m ((c : Thread nD τ).loc main_arg8)) (ix2 q p)) := by
  show @Eq EReal ((V m c main_v9 : S64x1.Idx → EReal) (((cfg0.win 7).blk t).view.emb (ix2 p (0 : Fin 1)))) _
  have e : ((cfg0.win 7).blk t).view.emb (ix2 p (0 : Fin 1)) = ix2 p (0 : Fin 1) := by
    obtain ⟨-, -, -, -, -, -, -, -, -, -, -, -, -, -, e0, e1, -⟩ := idx_facts t
    funext a; apply Fin.ext
    match a with
    | ⟨0, _⟩ => show win0_7.index t (0 : Fin 2) * 64 + 1 * p.val = p.val; rw [e0]; omega
    | ⟨1, _⟩ => show win0_7.index t (1 : Fin 2) * 1 + 1 * 0 = 0; rw [e1]
  rw [e]; exact v9_at m c p

theorem blk8_at (t : Fin cfg0.N) (p : Fin 64) :
    (iblk m c 8 t : S64x1.Idx → EReal) (ix2 p (0 : Fin 1))
      = m ((c : Thread nD τ).loc main_arg6) (ix2 (0 : Fin 1) (⟨p.val, Nat.lt_of_lt_of_le p.isLt (by decide)⟩ : Fin 128)) := by
  show (V m c main_v7 : S64x1.Idx → EReal) (((cfg0.win 8).blk t).view.emb (ix2 p (0 : Fin 1))) = _
  have e : ((cfg0.win 8).blk t).view.emb (ix2 p (0 : Fin 1)) = ix2 p (0 : Fin 1) := by
    obtain ⟨-, -, -, -, -, -, -, -, -, -, -, -, -, -, -, -, e0, e1, -⟩ := idx_facts t
    funext a; apply Fin.ext
    match a with
    | ⟨0, _⟩ => show win0_8.index t (0 : Fin 2) * 64 + 1 * p.val = p.val; rw [e0]; omega
    | ⟨1, _⟩ => show win0_8.index t (1 : Fin 2) * 1 + 1 * 0 = 0; rw [e1]
  rw [e]; exact v7_at m c p

/-! ## Real arguments -/

/-- The argument arrays as core c finds them hold real numbers. -/
abbrev Real : Prop :=
  ArgsReal (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The weights core c's arrays give. -/
abbrev wts : Wts :=
  wtsOf (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-- The result as one function of core c's argument arrays. -/
abbrev Gm : S4096x128x1.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

variable {m c}

/-- At grid point t the loaded blocks hold the real data of batch rows 128·t … 128·t + 127. -/
theorem holds (R : Real m c) (t : Fin cfg0.N) :
    Block.Holds (iblk m c 0 t) (iblk m c 1 t) (iblk m c 2 t) (iblk m c 3 t) (iblk m c 4 t) (iblk m c 5 t) (iblk m c 6 t)
      (iblk m c 7 t) (iblk m c 8 t) (wts m c)
      (fun b' => rowOf (m ((c : Thread nD τ).loc main_arg0)) (gRow t b'))
      (fun b' => rowOf (m ((c : Thread nD τ).loc main_arg1)) (gRow t b')) where
  hx0 b k := (blk0_at m c t b k).trans (R.r0.eq _)
  hx1 b k := (blk1_at m c t b k).trans (R.r1.eq _)
  hx2 p := (blk2_at m c t p).trans (R.r2.eq _)
  hx3 p := (blk3_at m c t p).trans (R.r5.eq _)
  hx4 p q := (blk4_at m c t p q).trans (R.r3.eq _)
  hx5 p q := (blk5_at m c t p q).trans (R.r4.eq _)
  hx6 p q := (blk6_at m c t p q).trans (R.r7.eq _)
  hx7 p := by
    refine (blk7_at m c t p).trans ?_
    simp only [v57, coe_sum, EReal.coe_mul]
    exact Finset.sum_congr rfl fun q _ => congrArg₂ (· * ·) (R.r6.eq _) (R.r8.eq _)
  hx8 p := (blk8_at m c t p).trans (R.r6.eq _)

variable (m c)

/-- The [4096, 128] array the pallas_call leaves: the result function without its trailing unit axis. -/
def G2 : S4096x128.Idx → EReal := shapeCast S4096x128 (Gm m c) shapeCasts_S4096x128x1_S4096x128

theorem G2_at (B : Fin 4096) (k : Fin 128) : G2 m c (ix2 B k) = Gm m c (ix3 B k (0 : Fin 1)) :=
  BlockLayout.shapeCast_ab1_ab_apply _ _ B k

variable {m c}

/-- What grid point t writes back is block t of that array. -/
theorem flushed_eq (R : Real m c) (t : Fin cfg0.N) :
    (dats m 0 c).flushed 9 t = ((cfg0.win 9).blk t).view.read (Elt Ideal) (G2 m c) := by
  show (cfg0.win 9).cut (grid0.coords t) ((dats m 0 c).after 9 t) = _
  rw [after0_9]
  refine funext fun (y : S128x128.Idx) => ?_
  obtain ⟨b', k, rfl⟩ : ∃ (b' k : Fin 128), y = ix2 b' k := ⟨y 0, y 1, eq_ix2 y⟩
  show (out0_9 (iblk m c 0 t) (iblk m c 1 t) (iblk m c 2 t) (iblk m c 3 t) (iblk m c 4 t) (iblk m c 5 t) (iblk m c 6 t)
      (iblk m c 7 t) (iblk m c 8 t) (ix2 b' k) : EReal) = G2 m c (((cfg0.win 9).blk t).view.emb (ix2 b' k))
  have e : ((cfg0.win 9).blk t).view.emb (ix2 b' k) = ix2 (gRow t b') k := by
    obtain ⟨-, -, -, -, -, -, -, -, -, -, -, -, -, -, -, -, -, -, e0, e1⟩ := idx_facts t
    funext a; apply Fin.ext
    match a with
    | ⟨0, _⟩ => show win0_9.index t (0 : Fin 2) * 128 + 1 * b'.val = t.val * 128 + b'.val; rw [e0]; omega
    | ⟨1, _⟩ => show win0_9.index t (1 : Fin 2) * 128 + 1 * k.val = k.val; rw [e1]; omega
  rw [e, G2_at, Block.block_out (holds R t) b' k, outK_eq]
  exact (G_apply _ _ _ _ _ _ _ _ _ (gRow t b') k (0 : Fin 1)).symm

/-- An index of the [4096, 128] array is in point t's block iff each coordinate is in the block's range. -/
theorem mem_blk9 (t : Fin cfg0.N) (i : S4096x128.Idx) :
    i ∈ ((cfg0.win 9).blk t).view.set ↔ ∀ a : Fin 2, win0_9.index t a * S128x128.size a ≤ (i a).val
      ∧ (i a).val < win0_9.index t a * S128x128.size a + S128x128.size a := by
  show i ∈ ((View.whole main_v10).slice (win0_9.rect t)).set ↔ _
  rw [View.set_slice_whole, Rect.mem_set_unit]
  exact Iff.rfl

/-- The 32 blocks cover the array: row r is in the block of point r / 128. -/
theorem cover (i : S4096x128.Idx) :
    ∃ t : Fin cfg0.N, (cfg0.win 9).flush t = true ∧ i ∈ ((cfg0.win 9).blk t).view.set := by
  have hi0 : (i 0).val < 4096 := (i 0).isLt
  have hi1 : (i 1).val < 128 := (i 1).isLt
  have hN : (i 0).val / 128 < cfg0.N := by rw [show cfg0.N = 32 from N_0]; omega
  refine ⟨⟨(i 0).val / 128, hN⟩, flush0_9 _, ?_⟩
  rw [mem_blk9]
  obtain ⟨-, -, -, -, -, -, -, -, -, -, -, -, -, -, -, -, -, -, e0, e1⟩ := idx_facts ⟨(i 0).val / 128, hN⟩
  intro a
  match a with
  | ⟨0, _⟩ =>
    show win0_9.index ⟨(i 0).val / 128, hN⟩ (0 : Fin 2) * 128 ≤ (i 0).val
      ∧ (i 0).val < win0_9.index ⟨(i 0).val / 128, hN⟩ (0 : Fin 2) * 128 + 128
    rw [e0]; show (i 0).val / 128 * 128 ≤ (i 0).val ∧ (i 0).val < (i 0).val / 128 * 128 + 128; omega
  | ⟨1, _⟩ =>
    show win0_9.index ⟨(i 0).val / 128, hN⟩ (1 : Fin 2) * 128 ≤ (i 1).val
      ∧ (i 1).val < win0_9.index ⟨(i 0).val / 128, hN⟩ (1 : Fin 2) * 128 + 128
    rw [e1]; omega

/-- The array after the run. -/
theorem final (R : Real m c) : (dats m 0 c).arrAt 9 cfg0.N = G2 m c :=
  (dats m 0 c).arrAt_eq_of_cover 9 (G2 m c) (fun t _ => flushed_eq R t) cover

/-- The host's last reshape puts the unit axis back: the result array is the result function. -/
theorem tail_eq (R : Real m c) :
    Pipeline.afterTail₀ cfgs (dats m) 0 (V0 m) [hostOps1] c main_v11 = Gm m c := by
  unfold Pipeline.afterTail₀
  show StableHlo.after hostOps1 _ (Proc.devRef .tc main_v11) = _
  after_results
  have hw : Pipeline.withArrays (cfgs 0).spec c (V0 m c) (fun w => (dats m 0 c).arrAt w (cfgs 0).N) (Proc.devRef .tc main_v10)
      = G2 m c :=
    (Pipeline.withArrays_arr spec0 launch0.win.arr_inj c _ _ 9).trans (final R)
  rw [hw]
  exact shapeCast_shapeCast (Gm m c) _ _

variable (m)

/-- The kernel's run: every weakly fair execution ends with the result array at the result function of the arguments and
    the arguments unchanged. -/
theorem run (hR : ∀ c, Real m c) :
    θ_run defs (onTc (τ := τ) (main (F := Ideal))) ⟨m, fun _ => 0, ρ⟩ (fun r => ∀ c : Dev nD,
      r.2.mem ((c.tc : Thread nD τ).loc main_v11) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v11 (Pipeline.mem_restRefs_of main_v11 (by decide) (by decide))).trans (tail_eq (hR c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 3).trans (((dats m 0 c).arrAt_in 3 rfl _).trans ((A_eq m c 3).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.MeanField.KValue

end
-- ==== Proof.RefIndex.lean ====
/-
  The reference's index functions at indices given by coordinates: each operation of the reference reads its operand at
  an index computed from the result index (a contraction's operand indices, a reduction's inserted coordinate, a
  broadcast's dropped axes, a slice's offset); written with coordinates, each is a plain re-arrangement of them.
-/
import proofs.«149688_j29755533427211_2_alg».proof.Proof.Gen.ReferenceIdeal.Read

namespace Cert.MeanField.Ref

open Idealize.ShloMosaic Idealize.ShloMosaic.ValueIdx Cert.ReferenceIdeal Cert.ReferenceIdeal.Gen Cert.ReferenceIdeal.Read

theorem lidx_main_v0_ix (v0 : Fin 4096) (v1 : Fin 128) (v2 : Fin 64) (k : Fin 1) : lidx_main_v0 (ix3 v0 v1 v2) k = ix3 v0 v1 k :=
  funext fun a => Fin.ext (by match a with | ⟨0, _⟩ => rfl | ⟨1, _⟩ => rfl | ⟨2, _⟩ => rfl)
theorem ridx_main_v0_ix (v0 : Fin 4096) (v1 : Fin 128) (v2 : Fin 64) (k : Fin 1) : ridx_main_v0 (ix3 v0 v1 v2) k = ix2 v2 k :=
  funext fun a => Fin.ext (by match a with | ⟨0, _⟩ => rfl | ⟨1, _⟩ => rfl)
theorem idx_main_v2_ix (v0 : Fin 4096) (v1 : Fin 64) (k : Fin 128) : idx_main_v2 (ix2 v0 v1) k = ix3 v0 k v1 :=
  funext fun a => Fin.ext (by match a with | ⟨0, _⟩ => rfl | ⟨1, _⟩ => rfl | ⟨2, _⟩ => rfl)
theorem idx_main_v3_ix (v0 : Fin 4096) (v1 : Fin 1) (v2 : Fin 64) : idx_main_v3 (ix3 v0 v1 v2) = ix2 v0 v2 :=
  funext fun a => Fin.ext (by match a with | ⟨0, _⟩ => rfl | ⟨1, _⟩ => rfl)
theorem lidx_main_v4_ix (v0 : Fin 4096) (v1 : Fin 128) (v2 : Fin 64) (k : Fin 1) : lidx_main_v4 (ix3 v0 v1 v2) k = ix3 v0 v1 k :=
  funext fun a => Fin.ext (by match a with | ⟨0, _⟩ => rfl | ⟨1, _⟩ => rfl | ⟨2, _⟩ => rfl)
theorem ridx_main_v4_ix (v0 : Fin 4096) (v1 : Fin 128) (v2 : Fin 64) (k : Fin 1) : ridx_main_v4 (ix3 v0 v1 v2) k = ix2 v2 k :=
  funext fun a => Fin.ext (by match a with | ⟨0, _⟩ => rfl | ⟨1, _⟩ => rfl)
theorem idx_main_v6_ix (v0 : Fin 4096) (v1 : Fin 64) (k : Fin 128) : idx_main_v6 (ix2 v0 v1) k = ix3 v0 k v1 :=
  funext fun a => Fin.ext (by match a with | ⟨0, _⟩ => rfl | ⟨1, _⟩ => rfl | ⟨2, _⟩ => rfl)
theorem idx_main_v7_ix (v0 : Fin 4096) (v1 : Fin 1) (v2 : Fin 64) : idx_main_v7 (ix3 v0 v1 v2) = ix2 v0 v2 :=
  funext fun a => Fin.ext (by match a with | ⟨0, _⟩ => rfl | ⟨1, _⟩ => rfl)
theorem idx_main_v8_ix (v0 : Fin 4096) (v1 : Fin 128) (v2 : Fin 64) : idx_main_v8 (ix3 v0 v1 v2) = ix3 v0 (0 : Fin 1) v2 :=
  funext fun a => Fin.ext (by match a with | ⟨0, _⟩ => rfl | ⟨1, _⟩ => rfl | ⟨2, _⟩ => rfl)
theorem lidx_main_v10_ix (v0 : Fin 4096) (v1 : Fin 128) (v2 : Fin 64) (k : Fin 64) : lidx_main_v10 (ix3 v0 v1 v2) k = ix3 v0 v1 k :=
  funext fun a => Fin.ext (by match a with | ⟨0, _⟩ => rfl | ⟨1, _⟩ => rfl | ⟨2, _⟩ => rfl)
theorem ridx_main_v10_ix (v0 : Fin 4096) (v1 : Fin 128) (v2 : Fin 64) (k : Fin 64) : ridx_main_v10 (ix3 v0 v1 v2) k = ix2 v2 k :=
  funext fun a => Fin.ext (by match a with | ⟨0, _⟩ => rfl | ⟨1, _⟩ => rfl)
theorem idx_main_v12_ix (v0 : Fin 4096) (v1 : Fin 128) (v2 : Fin 64) : idx_main_v12 (ix3 v0 v1 v2) = ix3 v0 (0 : Fin 1) v2 :=
  funext fun a => Fin.ext (by match a with | ⟨0, _⟩ => rfl | ⟨1, _⟩ => rfl | ⟨2, _⟩ => rfl)
theorem lidx_main_v14_ix (v0 : Fin 4096) (v1 : Fin 128) (v2 : Fin 64) (k : Fin 64) : lidx_main_v14 (ix3 v0 v1 v2) k = ix3 v0 v1 k :=
  funext fun a => Fin.ext (by match a with | ⟨0, _⟩ => rfl | ⟨1, _⟩ => rfl | ⟨2, _⟩ => rfl)
theorem ridx_main_v14_ix (v0 : Fin 4096) (v1 : Fin 128) (v2 : Fin 64) (k : Fin 64) : ridx_main_v14 (ix3 v0 v1 v2) k = ix2 v2 k :=
  funext fun a => Fin.ext (by match a with | ⟨0, _⟩ => rfl | ⟨1, _⟩ => rfl)
theorem idx_main_v17_ix (v0 : Fin 4096) (v1 : Fin 64) (k : Fin 128) : idx_main_v17 (ix2 v0 v1) k = ix3 v0 k v1 :=
  funext fun a => Fin.ext (by match a with | ⟨0, _⟩ => rfl | ⟨1, _⟩ => rfl | ⟨2, _⟩ => rfl)
theorem idx_main_v18_ix (v0 : Fin 4096) (v1 : Fin 1) (v2 : Fin 64) : idx_main_v18 (ix3 v0 v1 v2) = ix2 v0 v2 :=
  funext fun a => Fin.ext (by match a with | ⟨0, _⟩ => rfl | ⟨1, _⟩ => rfl)
theorem idx_main_v19_ix (v0 : Fin 4096) (v1 : Fin 128) (v2 : Fin 64) : idx_main_v19 (ix3 v0 v1 v2) = ix3 v0 (0 : Fin 1) v2 :=
  funext fun a => Fin.ext (by match a with | ⟨0, _⟩ => rfl | ⟨1, _⟩ => rfl | ⟨2, _⟩ => rfl)
theorem lidx_main_v21_ix (v0 : Fin 4096) (v1 : Fin 128) (v2 : Fin 64) (k : Fin 64) : lidx_main_v21 (ix3 v0 v1 v2) k = ix3 v0 v1 k :=
  funext fun a => Fin.ext (by match a with | ⟨0, _⟩ => rfl | ⟨1, _⟩ => rfl | ⟨2, _⟩ => rfl)
theorem ridx_main_v21_ix (v0 : Fin 4096) (v1 : Fin 128) (v2 : Fin 64) (k : Fin 64) : ridx_main_v21 (ix3 v0 v1 v2) k = ix2 v2 k :=
  funext fun a => Fin.ext (by match a with | ⟨0, _⟩ => rfl | ⟨1, _⟩ => rfl)
theorem idx_main_v23_ix (v0 : Fin 4096) (v1 : Fin 128) (v2 : Fin 64) : idx_main_v23 (ix3 v0 v1 v2) = ix3 v0 (0 : Fin 1) v2 :=
  funext fun a => Fin.ext (by match a with | ⟨0, _⟩ => rfl | ⟨1, _⟩ => rfl | ⟨2, _⟩ => rfl)
theorem lidx_main_v25_ix (v0 : Fin 4096) (v1 : Fin 128) (v2 : Fin 64) (k : Fin 64) : lidx_main_v25 (ix3 v0 v1 v2) k = ix3 v0 v1 k :=
  funext fun a => Fin.ext (by match a with | ⟨0, _⟩ => rfl | ⟨1, _⟩ => rfl | ⟨2, _⟩ => rfl)
theorem ridx_main_v25_ix (v0 : Fin 4096) (v1 : Fin 128) (v2 : Fin 64) (k : Fin 64) : ridx_main_v25 (ix3 v0 v1 v2) k = ix2 v2 k :=
  funext fun a => Fin.ext (by match a with | ⟨0, _⟩ => rfl | ⟨1, _⟩ => rfl)
theorem idx_main_v28_ix (v0 : Fin 4096) (v1 : Fin 64) (k : Fin 128) : idx_main_v28 (ix2 v0 v1) k = ix3 v0 k v1 :=
  funext fun a => Fin.ext (by match a with | ⟨0, _⟩ => rfl | ⟨1, _⟩ => rfl | ⟨2, _⟩ => rfl)
theorem idx_main_v29_ix (v0 : Fin 4096) (v1 : Fin 1) (v2 : Fin 64) : idx_main_v29 (ix3 v0 v1 v2) = ix2 v0 v2 :=
  funext fun a => Fin.ext (by match a with | ⟨0, _⟩ => rfl | ⟨1, _⟩ => rfl)
theorem idx_main_v30_ix (v0 : Fin 4096) (v1 : Fin 128) (v2 : Fin 64) : idx_main_v30 (ix3 v0 v1 v2) = ix3 v0 (0 : Fin 1) v2 :=
  funext fun a => Fin.ext (by match a with | ⟨0, _⟩ => rfl | ⟨1, _⟩ => rfl | ⟨2, _⟩ => rfl)
theorem lidx_main_v32_ix (v0 : Fin 4096) (v1 : Fin 128) (v2 : Fin 64) (k : Fin 64) : lidx_main_v32 (ix3 v0 v1 v2) k = ix3 v0 v1 k :=
  funext fun a => Fin.ext (by match a with | ⟨0, _⟩ => rfl | ⟨1, _⟩ => rfl | ⟨2, _⟩ => rfl)
theorem ridx_main_v32_ix (v0 : Fin 4096) (v1 : Fin 128) (v2 : Fin 64) (k : Fin 64) : ridx_main_v32 (ix3 v0 v1 v2) k = ix2 v2 k :=
  funext fun a => Fin.ext (by match a with | ⟨0, _⟩ => rfl | ⟨1, _⟩ => rfl)
theorem idx_main_v34_ix (v0 : Fin 4096) (v1 : Fin 128) (v2 : Fin 64) : idx_main_v34 (ix3 v0 v1 v2) = ix3 v0 (0 : Fin 1) v2 :=
  funext fun a => Fin.ext (by match a with | ⟨0, _⟩ => rfl | ⟨1, _⟩ => rfl | ⟨2, _⟩ => rfl)
theorem lidx_main_v36_ix (v0 : Fin 4096) (v1 : Fin 128) (v2 : Fin 64) (k : Fin 64) : lidx_main_v36 (ix3 v0 v1 v2) k = ix3 v0 v1 k :=
  funext fun a => Fin.ext (by match a with | ⟨0, _⟩ => rfl | ⟨1, _⟩ => rfl | ⟨2, _⟩ => rfl)
theorem ridx_main_v36_ix (v0 : Fin 4096) (v1 : Fin 128) (v2 : Fin 64) (k : Fin 64) : ridx_main_v36 (ix3 v0 v1 v2) k = ix2 v2 k :=
  funext fun a => Fin.ext (by match a with | ⟨0, _⟩ => rfl | ⟨1, _⟩ => rfl)
theorem idx_main_v39_ix (v0 : Fin 4096) (v1 : Fin 64) (k : Fin 128) : idx_main_v39 (ix2 v0 v1) k = ix3 v0 k v1 :=
  funext fun a => Fin.ext (by match a with | ⟨0, _⟩ => rfl | ⟨1, _⟩ => rfl | ⟨2, _⟩ => rfl)
theorem idx_main_v40_ix (v0 : Fin 4096) (v1 : Fin 1) (v2 : Fin 64) : idx_main_v40 (ix3 v0 v1 v2) = ix2 v0 v2 :=
  funext fun a => Fin.ext (by match a with | ⟨0, _⟩ => rfl | ⟨1, _⟩ => rfl)
theorem idx_main_v41_ix (v0 : Fin 4096) (v1 : Fin 128) (v2 : Fin 64) : idx_main_v41 (ix3 v0 v1 v2) = ix3 v0 (0 : Fin 1) v2 :=
  funext fun a => Fin.ext (by match a with | ⟨0, _⟩ => rfl | ⟨1, _⟩ => rfl | ⟨2, _⟩ => rfl)
theorem lidx_main_v43_ix (v0 : Fin 4096) (v1 : Fin 128) (v2 : Fin 64) (k : Fin 64) : lidx_main_v43 (ix3 v0 v1 v2) k = ix3 v0 v1 k :=
  funext fun a => Fin.ext (by match a with | ⟨0, _⟩ => rfl | ⟨1, _⟩ => rfl | ⟨2, _⟩ => rfl)
theorem ridx_main_v43_ix (v0 : Fin 4096) (v1 : Fin 128) (v2 : Fin 64) (k : Fin 64) : ridx_main_v43 (ix3 v0 v1 v2) k = ix2 v2 k :=
  funext fun a => Fin.ext (by match a with | ⟨0, _⟩ => rfl | ⟨1, _⟩ => rfl)
theorem idx_main_v45_ix (v0 : Fin 4096) (v1 : Fin 128) (v2 : Fin 64) : idx_main_v45 (ix3 v0 v1 v2) = ix3 v0 (0 : Fin 1) v2 :=
  funext fun a => Fin.ext (by match a with | ⟨0, _⟩ => rfl | ⟨1, _⟩ => rfl | ⟨2, _⟩ => rfl)
theorem lidx_main_v47_ix (v0 : Fin 4096) (v1 : Fin 128) (v2 : Fin 64) (k : Fin 64) : lidx_main_v47 (ix3 v0 v1 v2) k = ix3 v0 v1 k :=
  funext fun a => Fin.ext (by match a with | ⟨0, _⟩ => rfl | ⟨1, _⟩ => rfl | ⟨2, _⟩ => rfl)
theorem ridx_main_v47_ix (v0 : Fin 4096) (v1 : Fin 128) (v2 : Fin 64) (k : Fin 64) : ridx_main_v47 (ix3 v0 v1 v2) k = ix2 v2 k :=
  funext fun a => Fin.ext (by match a with | ⟨0, _⟩ => rfl | ⟨1, _⟩ => rfl)
theorem idx_main_v50_ix (v0 : Fin 4096) (v1 : Fin 64) (k : Fin 128) : idx_main_v50 (ix2 v0 v1) k = ix3 v0 k v1 :=
  funext fun a => Fin.ext (by match a with | ⟨0, _⟩ => rfl | ⟨1, _⟩ => rfl | ⟨2, _⟩ => rfl)
theorem lidx_main_v51_ix (v0 : Fin 4096) (v1 : Fin 64) (k : Fin 64) : lidx_main_v51 (ix2 v0 v1) k = ix2 v0 k :=
  funext fun a => Fin.ext (by match a with | ⟨0, _⟩ => rfl | ⟨1, _⟩ => rfl)
theorem ridx_main_v51_ix (v0 : Fin 4096) (v1 : Fin 64) (k : Fin 64) : ridx_main_v51 (ix2 v0 v1) k = ix2 v1 k :=
  funext fun a => Fin.ext (by match a with | ⟨0, _⟩ => rfl | ⟨1, _⟩ => rfl)
theorem lidx_main_v53_ix (v0 : Fin 4096) (v1 : Fin 128) (v2 : Fin 64) (k : Fin 64) : lidx_main_v53 (ix3 v0 v1 v2) k = ix3 v0 v1 k :=
  funext fun a => Fin.ext (by match a with | ⟨0, _⟩ => rfl | ⟨1, _⟩ => rfl | ⟨2, _⟩ => rfl)
theorem ridx_main_v53_ix (v0 : Fin 4096) (v1 : Fin 128) (v2 : Fin 64) (k : Fin 64) : ridx_main_v53 (ix3 v0 v1 v2) k = ix2 v2 k :=
  funext fun a => Fin.ext (by match a with | ⟨0, _⟩ => rfl | ⟨1, _⟩ => rfl)
theorem idx_main_v54_ix (v0 : Fin 1) (v1 : Fin 64) : idx_main_v54 (ix2 v0 v1) = ix2 v0 (⟨v1.val, Nat.lt_of_lt_of_le v1.isLt (by decide)⟩ : Fin 128) :=
  funext fun a => Fin.ext (by match a with | ⟨0, _⟩ => rfl | ⟨1, _⟩ => rfl)
theorem idx_main_v55_ix (v0 : Fin 1) (v1 : Fin 64) : idx_main_v55 (ix2 v0 v1) = ix2 v0 (⟨64 + v1.val, by have := v1.isLt; omega⟩ : Fin 128) :=
  funext fun a => Fin.ext (by match a with | ⟨0, _⟩ => rfl | ⟨1, _⟩ => rfl)
theorem lidx_main_v56_ix (v0 : Fin 4096) (v1 : Fin 1) (k : Fin 64) : lidx_main_v56 (ix2 v0 v1) k = ix2 v0 k :=
  funext fun a => Fin.ext (by match a with | ⟨0, _⟩ => rfl | ⟨1, _⟩ => rfl)
theorem ridx_main_v56_ix (v0 : Fin 4096) (v1 : Fin 1) (k : Fin 64) : ridx_main_v56 (ix2 v0 v1) k = ix2 v1 k :=
  funext fun a => Fin.ext (by match a with | ⟨0, _⟩ => rfl | ⟨1, _⟩ => rfl)
theorem idx_main_v57_ix (v0 : Fin 4096) (v1 : Fin 1) (v2 : Fin 1) : idx_main_v57 (ix3 v0 v1 v2) = ix2 v0 (0 : Fin 1) :=
  funext fun a => Fin.ext (by match a with | ⟨0, _⟩ => rfl | ⟨1, _⟩ => rfl)
theorem lidx_main_v58_ix (v0 : Fin 4096) (v1 : Fin 128) (v2 : Fin 1) (k : Fin 64) : lidx_main_v58 (ix3 v0 v1 v2) k = ix3 v0 v1 k :=
  funext fun a => Fin.ext (by match a with | ⟨0, _⟩ => rfl | ⟨1, _⟩ => rfl | ⟨2, _⟩ => rfl)
theorem ridx_main_v58_ix (v0 : Fin 4096) (v1 : Fin 128) (v2 : Fin 1) (k : Fin 64) : ridx_main_v58 (ix3 v0 v1 v2) k = ix2 v2 k :=
  funext fun a => Fin.ext (by match a with | ⟨0, _⟩ => rfl | ⟨1, _⟩ => rfl)
theorem idx_main_v59_ix (v0 : Fin 4096) (v1 : Fin 128) (v2 : Fin 1) : idx_main_v59 (ix3 v0 v1 v2) = ix3 v0 (0 : Fin 1) (0 : Fin 1) :=
  funext fun a => Fin.ext (by match a with | ⟨0, _⟩ => rfl | ⟨1, _⟩ => rfl | ⟨2, _⟩ => rfl)

end Cert.MeanField.Ref
-- ==== Proof.RefValue.lean ====
/-
  The reference program read stage by stage over real arguments: each named stage of the specification — the rectified
  θ₄ of the weights, θ₁ of the features, θ₃ of the others' weights, the embeddings after each of the four rounds, the
  pooled readout and the per-node readout — is what the corresponding operation of the reference holds at an entry, so
  the reference's result array is the specification's function of the nine argument arrays.

  Every einsum is a sum over the contracted coordinate of products; a reduction adds its zero initial value; relu is the
  maximum with zero. Real values stay real through each of them, so the coercion is pushed through entry by entry.
-/
import proofs.«149688_j29755533427211_2_alg».proof.Proof.RefIndex
import proofs.«149688_j29755533427211_2_alg».proof.Proof.Spec

noncomputable section

namespace Cert.MeanField.Ref

open Idealize.ShloMosaic Idealize.ShloMosaic.ValueIdx Cert.ReferenceIdeal Cert.ReferenceIdeal.Gen Cert.ReferenceIdeal.Read
open Cert.MeanField

variable {x0 x1 : (⟨S4096x128x1, .f32⟩ : BufTy).Contents (Elt Ideal)} {x2 : (⟨S64x1, .f32⟩ : BufTy).Contents (Elt Ideal)}
  {x3 x4 : (⟨S64x64, .f32⟩ : BufTy).Contents (Elt Ideal)} {x5 : (⟨S64x1, .f32⟩ : BufTy).Contents (Elt Ideal)}
  {x6 : (⟨S1x128, .f32⟩ : BufTy).Contents (Elt Ideal)} {x7 x8 : (⟨S64x64, .f32⟩ : BufTy).Contents (Elt Ideal)}

local notation "P" => wtsOf x2 x3 x4 x5 x6 x7 x8

variable (R : ArgsReal x0 x1 x2 x3 x4 x5 x6 x7 x8)
include R

/-! ## The arguments' entries as the specification's real data -/

theorem hx (b : Fin 4096) (k : Fin 128) : (x0 (ix3 b k (0 : Fin 1)) : EReal) = ((rowOf x0 b k : ℝ) : EReal) := R.r0.eq _
theorem hwt (b : Fin 4096) (k : Fin 128) : (x1 (ix3 b k (0 : Fin 1)) : EReal) = ((rowOf x1 b k : ℝ) : EReal) := R.r1.eq _
theorem hw1 (p : Fin 64) : (x2 (ix2 p (0 : Fin 1)) : EReal) = (((P).w1 p : ℝ) : EReal) := R.r2.eq _
theorem hw4 (p : Fin 64) : (x5 (ix2 p (0 : Fin 1)) : EReal) = (((P).w4 p : ℝ) : EReal) := R.r5.eq _
theorem hw2 (q p : Fin 64) : (x3 (ix2 q p) : EReal) = (((P).w2 q p : ℝ) : EReal) := R.r3.eq _
theorem hw3 (q p : Fin 64) : (x4 (ix2 q p) : EReal) = (((P).w3 q p : ℝ) : EReal) := R.r4.eq _
theorem hw6 (q p : Fin 64) : (x7 (ix2 q p) : EReal) = (((P).w6 q p : ℝ) : EReal) := R.r7.eq _
theorem hw7 (q p : Fin 64) : (x8 (ix2 q p) : EReal) = (((P).w7 q p : ℝ) : EReal) := R.r8.eq _
theorem hw5a (p : Fin 64) :
    (x6 (ix2 (0 : Fin 1) (⟨p.val, Nat.lt_of_lt_of_le p.isLt (by decide)⟩ : Fin 128)) : EReal) = (((P).w5a p : ℝ) : EReal) := R.r6.eq _
theorem hw5b (q : Fin 64) :
    (x6 (ix2 (0 : Fin 1) (⟨64 + q.val, by have := q.isLt; omega⟩ : Fin 128)) : EReal) = (((P).w5b q : ℝ) : EReal) := R.r6.eq _

/-! ## The stages -/

/-- The rectified θ₄ of the weights. -/
theorem tm_at (b : Fin 4096) (k : Fin 128) (p : Fin 64) :
    val_main_v1 (F := Ideal) x1 x5 (ix3 b k p) = ((tm P (rowOf x1 b) k p : ℝ) : EReal) := by
  rw [val_main_v1_apply, val_main_v0_apply, val_main_call0_v0_apply, val_main_call0_cst_apply]
  simp only [Fin.sum_univ_one, lidx_main_v0_ix, ridx_main_v0_ix, Ideal.maximumf_def, Ideal.ofBits_def, Ideal.ofBits_zero_f32,
    hwt R, hw4 R]
  simp only [tm, coe_max, EReal.coe_mul, EReal.coe_zero]

/-- θ₁ of the features. -/
theorem xm_at (b : Fin 4096) (k : Fin 128) (p : Fin 64) :
    val_main_v4 (F := Ideal) x0 x2 (ix3 b k p) = ((xm P (rowOf x0 b) k p : ℝ) : EReal) := by
  rw [val_main_v4_apply]
  simp only [Fin.sum_univ_one, lidx_main_v4_ix, ridx_main_v4_ix, hx R, hw1 R]
  simp only [xm, EReal.coe_mul]

/-- θ₃ of the other nodes' rectified weights, as the reference forms it before round 1. -/
theorem t3_at_1 (b : Fin 4096) (k : Fin 128) (q : Fin 64) :
    val_main_v14 (F := Ideal) x1 x4 x5 (ix3 b k q) = ((t3 P (rowOf x1 b) k q : ℝ) : EReal) := by
  rw [val_main_v14_apply]
  simp only [val_main_v13_apply, val_main_v12_apply, val_main_v3_apply, val_main_v2_apply, val_main_cst_apply,
    lidx_main_v14_ix, ridx_main_v14_ix, idx_main_v12_ix, idx_main_v3_ix, idx_main_v2_ix,
    Ideal.subf_def, Ideal.ofBits_def, Ideal.ofBits_zero_f32, zero_add, tm_at R, hw3 R]
  simp only [t3, coe_sum, EReal.coe_mul, EReal.coe_sub]

/-- θ₃ of the other nodes' rectified weights, as the reference forms it before round 2. -/
theorem t3_at_2 (b : Fin 4096) (k : Fin 128) (q : Fin 64) :
    val_main_v25 (F := Ideal) x1 x4 x5 (ix3 b k q) = ((t3 P (rowOf x1 b) k q : ℝ) : EReal) := by
  rw [val_main_v25_apply]
  simp only [val_main_v24_apply, val_main_v23_apply, val_main_v3_apply, val_main_v2_apply, val_main_cst_apply,
    lidx_main_v25_ix, ridx_main_v25_ix, idx_main_v23_ix, idx_main_v3_ix, idx_main_v2_ix,
    Ideal.subf_def, Ideal.ofBits_def, Ideal.ofBits_zero_f32, zero_add, tm_at R, hw3 R]
  simp only [t3, coe_sum, EReal.coe_mul, EReal.coe_sub]

/-- θ₃ of the other nodes' rectified weights, as the reference forms it before round 3. -/
theorem t3_at_3 (b : Fin 4096) (k : Fin 128) (q : Fin 64) :
    val_main_v36 (F := Ideal) x1 x4 x5 (ix3 b k q) = ((t3 P (rowOf x1 b) k q : ℝ) : EReal) := by
  rw [val_main_v36_apply]
  simp only [val_main_v35_apply, val_main_v34_apply, val_main_v3_apply, val_main_v2_apply, val_main_cst_apply,
    lidx_main_v36_ix, ridx_main_v36_ix, idx_main_v34_ix, idx_main_v3_ix, idx_main_v2_ix,
    Ideal.subf_def, Ideal.ofBits_def, Ideal.ofBits_zero_f32, zero_add, tm_at R, hw3 R]
  simp only [t3, coe_sum, EReal.coe_mul, EReal.coe_sub]

/-- θ₃ of the other nodes' rectified weights, as the reference forms it before round 4. -/
theorem t3_at_4 (b : Fin 4096) (k : Fin 128) (q : Fin 64) :
    val_main_v47 (F := Ideal) x1 x4 x5 (ix3 b k q) = ((t3 P (rowOf x1 b) k q : ℝ) : EReal) := by
  rw [val_main_v47_apply]
  simp only [val_main_v46_apply, val_main_v45_apply, val_main_v3_apply, val_main_v2_apply, val_main_cst_apply,
    lidx_main_v47_ix, ridx_main_v47_ix, idx_main_v45_ix, idx_main_v3_ix, idx_main_v2_ix,
    Ideal.subf_def, Ideal.ofBits_def, Ideal.ofBits_zero_f32, zero_add, tm_at R, hw3 R]
  simp only [t3, coe_sum, EReal.coe_mul, EReal.coe_sub]

/-- The embeddings before the first round are zero. -/
theorem mu_at_0 (b : Fin 4096) (k : Fin 128) (q : Fin 64) :
    val_main_v5 (F := Ideal) (ix3 b k q) = ((muR P (rowOf x0 b) (rowOf x1 b) 0 k q : ℝ) : EReal) := by
  rw [val_main_v5_apply, val_main_cst_0_apply]
  show Ideal.ofBits .f32 0x00000000#32 = (((0 : ℝ)) : EReal)
  rw [Ideal.ofBits_zero_f32, EReal.coe_zero]

/-- The embeddings after round 1. -/
theorem mu_at_1 (b : Fin 4096) (k : Fin 128) (q : Fin 64) :
    val_main_v16 (F := Ideal) x0 x1 x2 x3 x4 x5 (ix3 b k q) = ((muR P (rowOf x0 b) (rowOf x1 b) 1 k q : ℝ) : EReal) := by
  rw [val_main_v16_apply, val_main_v15_apply, val_main_v11_apply, val_main_v10_apply]
  simp only [val_main_v9_apply, val_main_v8_apply, val_main_v7_apply, val_main_v6_apply, val_main_cst_1_apply,
    val_main_call1_v0_apply, val_main_call1_cst_apply,
    lidx_main_v10_ix, ridx_main_v10_ix, idx_main_v8_ix, idx_main_v7_ix, idx_main_v6_ix,
    Ideal.maximumf_def, Ideal.addf_def, Ideal.subf_def, Ideal.ofBits_def, Ideal.ofBits_zero_f32, zero_add,
    mu_at_0 R, xm_at R, t3_at_1 R, hw2 R]
  show _ = ((stepR P (rowOf x0 b) (rowOf x1 b) (muR P (rowOf x0 b) (rowOf x1 b) 0) k q : ℝ) : EReal)
  simp only [stepR, EReal.coe_add, coe_sum, EReal.coe_mul, EReal.coe_sub, coe_max, EReal.coe_zero]

/-- The embeddings after round 2. -/
theorem mu_at_2 (b : Fin 4096) (k : Fin 128) (q : Fin 64) :
    val_main_v27 (F := Ideal) x0 x1 x2 x3 x4 x5 (ix3 b k q) = ((muR P (rowOf x0 b) (rowOf x1 b) 2 k q : ℝ) : EReal) := by
  rw [val_main_v27_apply, val_main_v26_apply, val_main_v22_apply, val_main_v21_apply]
  simp only [val_main_v20_apply, val_main_v19_apply, val_main_v18_apply, val_main_v17_apply, val_main_cst_2_apply,
    val_main_call2_v0_apply, val_main_call2_cst_apply,
    lidx_main_v21_ix, ridx_main_v21_ix, idx_main_v19_ix, idx_main_v18_ix, idx_main_v17_ix,
    Ideal.maximumf_def, Ideal.addf_def, Ideal.subf_def, Ideal.ofBits_def, Ideal.ofBits_zero_f32, zero_add,
    mu_at_1 R, xm_at R, t3_at_2 R, hw2 R]
  show _ = ((stepR P (rowOf x0 b) (rowOf x1 b) (muR P (rowOf x0 b) (rowOf x1 b) 1) k q : ℝ) : EReal)
  simp only [stepR, EReal.coe_add, coe_sum, EReal.coe_mul, EReal.coe_sub, coe_max, EReal.coe_zero]

/-- The embeddings after round 3. -/
theorem mu_at_3 (b : Fin 4096) (k : Fin 128) (q : Fin 64) :
    val_main_v38 (F := Ideal) x0 x1 x2 x3 x4 x5 (ix3 b k q) = ((muR P (rowOf x0 b) (rowOf x1 b) 3 k q : ℝ) : EReal) := by
  rw [val_main_v38_apply, val_main_v37_apply, val_main_v33_apply, val_main_v32_apply]
  simp only [val_main_v31_apply, val_main_v30_apply, val_main_v29_apply, val_main_v28_apply, val_main_cst_3_apply,
    val_main_call3_v0_apply, val_main_call3_cst_apply,
    lidx_main_v32_ix, ridx_main_v32_ix, idx_main_v30_ix, idx_main_v29_ix, idx_main_v28_ix,
    Ideal.maximumf_def, Ideal.addf_def, Ideal.subf_def, Ideal.ofBits_def, Ideal.ofBits_zero_f32, zero_add,
    mu_at_2 R, xm_at R, t3_at_3 R, hw2 R]
  show _ = ((stepR P (rowOf x0 b) (rowOf x1 b) (muR P (rowOf x0 b) (rowOf x1 b) 2) k q : ℝ) : EReal)
  simp only [stepR, EReal.coe_add, coe_sum, EReal.coe_mul, EReal.coe_sub, coe_max, EReal.coe_zero]

/-- The embeddings after round 4. -/
theorem mu_at_4 (b : Fin 4096) (k : Fin 128) (q : Fin 64) :
    val_main_v49 (F := Ideal) x0 x1 x2 x3 x4 x5 (ix3 b k q) = ((muR P (rowOf x0 b) (rowOf x1 b) 4 k q : ℝ) : EReal) := by
  rw [val_main_v49_apply, val_main_v48_apply, val_main_v44_apply, val_main_v43_apply]
  simp only [val_main_v42_apply, val_main_v41_apply, val_main_v40_apply, val_main_v39_apply, val_main_cst_4_apply,
    val_main_call4_v0_apply, val_main_call4_cst_apply,
    lidx_main_v43_ix, ridx_main_v43_ix, idx_main_v41_ix, idx_main_v40_ix, idx_main_v39_ix,
    Ideal.maximumf_def, Ideal.addf_def, Ideal.subf_def, Ideal.ofBits_def, Ideal.ofBits_zero_f32, zero_add,
    mu_at_3 R, xm_at R, t3_at_4 R, hw2 R]
  show _ = ((stepR P (rowOf x0 b) (rowOf x1 b) (muR P (rowOf x0 b) (rowOf x1 b) 3) k q : ℝ) : EReal)
  simp only [stepR, EReal.coe_add, coe_sum, EReal.coe_mul, EReal.coe_sub, coe_max, EReal.coe_zero]

/-- The pooled embedding through θ₆, rectified. -/
theorem pooled_at (b : Fin 4096) (q : Fin 64) :
    val_main_v52 (F := Ideal) x0 x1 x2 x3 x4 x5 x7 (ix2 b q) = ((pooled P (muR P (rowOf x0 b) (rowOf x1 b) 4) q : ℝ) : EReal) := by
  rw [val_main_v52_apply, val_main_v51_apply]
  simp only [val_main_v50_apply, val_main_cst_5_apply, val_main_call5_v0_apply, val_main_call5_cst_apply,
    lidx_main_v51_ix, ridx_main_v51_ix, idx_main_v50_ix, Ideal.maximumf_def, Ideal.ofBits_def, Ideal.ofBits_zero_f32, zero_add,
    mu_at_4 R, hw6 R]
  simp only [pooled, coe_max, coe_sum, EReal.coe_mul, EReal.coe_zero]

/-- θ₇ of a node's last embedding. -/
theorem local_at (b : Fin 4096) (k : Fin 128) (q : Fin 64) :
    val_main_v53 (F := Ideal) x0 x1 x2 x3 x4 x5 x8 (ix3 b k q)
      = ((∑ p : Fin 64, muR P (rowOf x0 b) (rowOf x1 b) 4 k p * (P).w7 q p : ℝ) : EReal) := by
  rw [val_main_v53_apply]
  simp only [lidx_main_v53_ix, ridx_main_v53_ix, mu_at_4 R, hw7 R]
  simp only [coe_sum, EReal.coe_mul]

/-- The readout. -/
theorem out_at (b : Fin 4096) (k : Fin 128) (u : Fin 1) :
    val_main_v60 (F := Ideal) x0 x1 x2 x3 x4 x5 x6 x7 x8 (ix3 b k u) = ((outR P (rowOf x0 b) (rowOf x1 b) k : ℝ) : EReal) := by
  have hu : u = (0 : Fin 1) := Subsingleton.elim _ _
  subst hu
  rw [val_main_v60_apply, val_main_v59_apply, val_main_v57_apply, val_main_v56_apply, val_main_v58_apply]
  simp only [val_main_v54_apply, val_main_v55_apply, idx_main_v59_ix, idx_main_v57_ix, lidx_main_v56_ix, ridx_main_v56_ix,
    lidx_main_v58_ix, ridx_main_v58_ix, idx_main_v54_ix, idx_main_v55_ix, Ideal.addf_def, pooled_at R, local_at R, hw5a R, hw5b R]
  simp only [outR, EReal.coe_add, coe_sum, EReal.coe_mul]

/-- The reference's result array is the specification's function of the arguments. -/
theorem result_eq : val_main_v60 (F := Ideal) x0 x1 x2 x3 x4 x5 x6 x7 x8 = G x0 x1 x2 x3 x4 x5 x6 x7 x8 := by
  funext i
  obtain ⟨b, k, u, rfl⟩ : ∃ (b : Fin 4096) (k : Fin 128) (u : Fin 1), i = ix3 b k u := ⟨i 0, i 1, i 2, eq_ix3 i⟩
  rw [out_at R, G_apply]

end Cert.MeanField.Ref

end
-- ==== Proof.Finite.lean ====
/-
  From the precondition to real entries.

  The precondition is the conjunction, over the nine argument arrays, of "every entry's absolute value is below +∞":
  each conjunct is an and-reduction, over every index, of the comparison |x| < f32's infinity word, which denotes ⊤. On
  the extended reals |x| = max x (−x) is ⊤ exactly at x = ⊤ and x = ⊥, so each conjunct says that every entry of its array
  is a real number.
-/
import proofs.«149688_j29755533427211_2_alg».proof.Pre_finite_inputs
import proofs.«149688_j29755533427211_2_alg».proof.Proof.Gen.Pre_finite_inputs
import proofs.«149688_j29755533427211_2_alg».proof.Proof.Spec
import Idealize.ShloMosaic.Lib.ReduceAll
import Idealize.ShloMosaic.PureOps.Ideal.Laws

noncomputable section

namespace Cert.MeanField.Finite

open Idealize.ShloMosaic Cert.Pre_finite_inputs Cert.Pre_finite_inputs.Gen Cert.MeanField

instance : Subsingleton S_.Idx := ⟨fun a b => funext fun d => d.elim0⟩

/-- The infinity word of f32 denotes ⊤. -/
theorem inf_word : Ideal.ofBits .f32 0x7F800000#32 = (⊤ : EReal) := by
  simp [Ideal.ofBits, Ideal.ieee]

/-- An extended real whose absolute value is below ⊤ is a real number. -/
theorem real_of_abs_lt (x : EReal) (h : Ideal.cmp .olt (max x (-x)) (Ideal.ofBits .f32 0x7F800000#32) = 1#1) :
    x ≠ ⊤ ∧ x ≠ ⊥ := by
  rw [inf_word] at h
  have hlt : max x (-x) < ⊤ := by
    by_contra hn
    simp [Ideal.cmp, hn] at h
  constructor
  · rintro rfl; simp at hlt
  · rintro rfl; simp at hlt

/-- One conjunct of the precondition: the and-reduction over every index of |a| < ∞ being 1 makes every entry real. -/
theorem allReal_of {S : Shape} {axes : List (Fin S.rank)} (a : FVec Ideal S .f32) (dims : Fin S_.rank → Fin S.rank)
    (bc : S_.BroadcastsInDim S dims) (h : S.ReducesTo axes S_) (hu : 0 < S_.numel)
    (e : Host.reduce IntOp.andi (cmpf .olt (Host.absf a) (broadcastInDim S dims bc (constant (F := Ideal) S_ .f32 0x7F800000#32)))
      (constantI S_ 1 1#1) h hu ValueIdx.ix0 = 1#1) : AllReal (a : S.Idx → EReal) := fun i =>
  real_of_abs_lt (a i) (Host.reduce_andi_all _ _ h hu ValueIdx.ix0 e i)

/-- The precondition makes every argument array real. -/
theorem argsReal (a0 a1 : FVec Ideal S4096x128x1 .f32) (a2 : FVec Ideal S64x1 .f32) (a3 a4 : FVec Ideal S64x64 .f32)
    (a5 : FVec Ideal S64x1 .f32) (a6 : FVec Ideal S1x128 .f32) (a7 a8 : FVec Ideal S64x64 .f32)
    (hpre : fn (F := Ideal) a0 a1 a2 a3 a4 a5 a6 a7 a8 = fun _ => 1#1) : ArgsReal a0 a1 a2 a3 a4 a5 a6 a7 a8 := by
  have h := congrFun hpre ValueIdx.ix0
  unfold fn fn_part1 fn_part2 at h
  simp only [andi, IntOp.andi_eq_one] at h
  obtain ⟨⟨⟨⟨⟨⟨⟨⟨h0, h1⟩, h2⟩, h3⟩, h4⟩, h5⟩, h6⟩, h7⟩, h8⟩ := h
  exact ⟨allReal_of a0 _ _ _ _ h0, allReal_of a1 _ _ _ _ h1, allReal_of a2 _ _ _ _ h2, allReal_of a3 _ _ _ _ h3,
    allReal_of a4 _ _ _ _ h4, allReal_of a5 _ _ _ _ h5, allReal_of a6 _ _ _ _ h6, allReal_of a7 _ _ _ _ h7,
    allReal_of a8 _ _ _ _ h8⟩

end Cert.MeanField.Finite

end
-- ==== Proof.lean ====
/-
  Equivalence, on the extended reals, of a mean-field message-passing kernel and its jnp reference.

  Both programs compute, for each of 4096 batch rows of 128 nodes with a scalar feature and a scalar weight, four rounds
  of message passing on 64-dimensional embeddings and a readout (Proof/Spec.lean states it over the reals). The kernel
  differs from the reference in arrangement only: θ₂ is applied to the node sum and to the node's own embedding
  separately and the products subtracted; θ₃ of the weights is added to θ₁ of the features once, before the rounds; θ₇ and
  the second half of θ₅ are contracted first, on the host; the rows are processed in 32 blocks of 128. These agree over
  the reals by distributivity and the exchange of finite sums, and the precondition makes every argument entry a real
  number (Proof/Finite.lean), so that every intermediate value of either program is real and the laws apply.

  The kernel's result array is read off its run (Proof/KernelRun.lean, over Proof/KernelValue.lean, Proof/KernelBlock.lean,
  Proof/KernelBody.lean), the reference's off its run (Proof/RefValue.lean); both are the one function Spec.G of the
  argument arrays. The three frames are the programs' runs with the result dropped; no operation was rewritten by the
  idealization, so the preservation claim is trivial.
-/
import proofs.«149688_j29755533427211_2_alg».proof.Defs
import proofs.«149688_j29755533427211_2_alg».proof.Proof.Gen.Kernel
import proofs.«149688_j29755533427211_2_alg».proof.Proof.Gen.Kernel.Skeleton
import proofs.«149688_j29755533427211_2_alg».proof.Proof.Gen.Kernel.Launch
import proofs.«149688_j29755533427211_2_alg».proof.Proof.Gen.Kernel.Points
import proofs.«149688_j29755533427211_2_alg».proof.Proof.Gen.Kernel.Frame
import proofs.«149688_j29755533427211_2_alg».proof.Proof.Gen.KernelIdeal
import proofs.«149688_j29755533427211_2_alg».proof.Proof.Gen.KernelIdeal.Skeleton
import proofs.«149688_j29755533427211_2_alg».proof.Proof.Gen.KernelIdeal.Launch
import proofs.«149688_j29755533427211_2_alg».proof.Proof.Gen.KernelIdeal.Points
import proofs.«149688_j29755533427211_2_alg».proof.Proof.Gen.KernelIdeal.Frame
import proofs.«149688_j29755533427211_2_alg».proof.Proof.Gen.ReferenceIdeal
import proofs.«149688_j29755533427211_2_alg».proof.Proof.Gen.Pre_finite_inputs
import proofs.«149688_j29755533427211_2_alg».proof.Proof.Gen.ReferenceIdeal.Run
import proofs.«149688_j29755533427211_2_alg».proof.Proof.Gen.ReferenceIdeal.Read
import proofs.«149688_j29755533427211_2_alg».proof.Proof.KernelRun
import proofs.«149688_j29755533427211_2_alg».proof.Proof.RefValue
import proofs.«149688_j29755533427211_2_alg».proof.Proof.Finite
import Idealize.ShloMosaic.Adequacy
import Idealize.ShloMosaic.Init

noncomputable section

namespace Cert.Proof

open Idealize.ShloMosaic Idealize.SL.Sem Cert.MeanField

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, both idealized programs end with the result array at the specification's
    function of the (real) argument arrays. -/
theorem algebraic : Cert.algebraic_KernelIdeal_ReferenceIdeal := by
  intro m ρ m' ρ' hpre hagree
  have hR : ∀ c, KValue.Real m c := fun c => Finite.argsReal _ _ _ _ _ _ _ _ _ (hpre c)
  refine ⟨fun c => KValue.Gm m c, KValue.run m ρ hR, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v60_eq]
  obtain ⟨h0, h1, h2, h3, h4, h5, h6, h7, h8⟩ := hagree c
  rw [h0, h1, h2, h3, h4, h5, h6, h7, h8]
  exact Ref.result_eq (hR c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
